-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) (main_arg3 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S_ : Shape := ⟨0, ![]⟩
abbrev S1x8192 : Shape := ⟨2, ![1, 8192]⟩
abbrev S1024x512 : Shape := ⟨2, ![1024, 512]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 26
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192, .i32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S1x8192, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S1x8192, .f32⟩
  | .hbm, ⟨18, _⟩ => ⟨S8192x512, .bf16⟩
  | .hbm, ⟨19, _⟩ => ⟨S8192x512, .bf16⟩
  | .hbm, ⟨20, _⟩ => ⟨S1x8192, .i32⟩
  | .hbm, ⟨21, _⟩ => ⟨S1x8192, .i32⟩
  | .hbm, ⟨22, _⟩ => ⟨S1x8192, .f32⟩
  | .hbm, ⟨23, _⟩ => ⟨S1x8192, .f32⟩
  | .hbm, ⟨24, _⟩ => ⟨S8192, .f32⟩
  | .hbm, ⟨25, _⟩ => ⟨S8192, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .i32⟩
  | .local _ .vmem, ⟨9, _⟩ => ⟨S1x1024, .i32⟩
  | .local _ .vmem, ⟨10, _⟩ => ⟨S1x1024, .i32⟩
  | .local _ .vmem, ⟨11, _⟩ => ⟨S1x1024, .i32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1, .f32⟩
  | .local _ .vmem, ⟨17, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_28 : BitVec 32 := 0#32
  let v55 : BitVec 1 := Scalar.cmpi .ne v54 c0_i32_28
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x512_S8192_d1 : S8192x512.ReducesTo [1] S8192
  h_S_ : 0 < S_.numel
  bcast_S_S8192 : S_.BroadcastsInDim S8192 (![] : Fin 0 → Fin S8192.rank)
  shapeCasts_S8192_S1x8192 : S8192.ShapeCasts S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  transposes_S1024x1_p1_0_S1x1024 : S1024x1.Transposes [1, 0] S1x1024
  shapeCasts_S1x8192_S8192 : S1x8192.ShapeCasts S8192
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .i32 = 32 ∨ (Rect.block (s := S1x8192) S1x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x8192.size a
  hwx0_7 : ∀ i : grid0.Coords, EltTy.bits .f32 = 32 ∨ (Rect.block (s := S1x8192) S1x1024.size (cc0_transform_7 i) (hinb0_7 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192, .i32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x1, .i32⟩
  | .hbm, ⟨28, _⟩ => ⟨S1x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_call1_v0 : Ref sig .tc := ⟨.hbm, 49, rfl⟩
abbrev main_call1_v1 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Pieces.lean ====
import proofs.«118512_j80315888435505_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]

theorem hz : (![0, 0] : Fin 2 → Nat) = fun _ => 0 := funext fun a => by fin_cases a <;> rfl

/-! The three control cases of the body, read back as values: what each leaves in the two running-sum
    columns and, at the last target group, in the two output rows. `x0 … x5` are the six input blocks
    of the grid point, `xs0`, `xs1` what the running sums held before it. -/

/-- First target group: the first running sum restarts from the zero column and takes this group's partial sum. -/
theorem accS_first (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x512 .bf16) (x1 : Vec F S1024x512 .bf16) (x2 : Vec F S1x1024 .f32) (x3 : Vec F S1x1024 .f32) (x4 : Vec F S1x1024 .i32) (x5 : Vec F S1x1024 .i32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay9 x0 x1 x2 x3 x4 x5) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x512) hz, View.ld_unit_zero (S := S1x1024) hz]

/-- First target group: the second running sum restarts from the zero column likewise. -/
theorem accC_first (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x512 .bf16) (x1 : Vec F S1024x512 .bf16) (x2 : Vec F S1x1024 .f32) (x3 : Vec F S1x1024 .f32) (x4 : Vec F S1x1024 .i32) (x5 : Vec F S1x1024 .i32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay8 x4 x5) (k0_pay10 x0 x1 x2 x3) (Scalar.ofBits .f32 0x00000000#32) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x512) hz, View.ld_unit_zero (S := S1x1024) hz]

/-- A middle target group adds its partial sum to the first running sum. -/
theorem accS_mid (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x512 .bf16) (x1 : Vec F S1024x512 .bf16) (x2 : Vec F S1x1024 .f32) (x3 : Vec F S1x1024 .f32) (x4 : Vec F S1x1024 .i32) (x5 : Vec F S1x1024 .i32) (xs0 : Vec F S1024x1 .f32) (xs1 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay9 x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x512) hz, View.ld_unit_zero (S := S1x1024) hz]

/-- A middle target group adds its partial sum to the second running sum. -/
theorem accC_mid (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x512 .bf16) (x1 : Vec F S1024x512 .bf16) (x2 : Vec F S1x1024 .f32) (x3 : Vec F S1x1024 .f32) (x4 : Vec F S1x1024 .i32) (x5 : Vec F S1x1024 .i32) (xs0 : Vec F S1024x1 .f32) (xs1 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 x4 x5) (k0_pay10 x0 x1 x2 x3) (Scalar.ofBits .f32 0x00000000#32) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x512) hz, View.ld_unit_zero (S := S1x1024) hz]

/-- The last target group adds its partial sum to the first running sum … -/
theorem accS_last (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x512 .bf16) (x1 : Vec F S1024x512 .bf16) (x2 : Vec F S1x1024 .f32) (x3 : Vec F S1x1024 .f32) (x4 : Vec F S1x1024 .i32) (x5 : Vec F S1x1024 .i32) (xs0 : Vec F S1024x1 .f32) (xs1 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay9 x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x512) hz, View.ld_unit_zero (S := S1x1024) hz]

/-- … and to the second … -/
theorem accC_last (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x512 .bf16) (x1 : Vec F S1024x512 .bf16) (x2 : Vec F S1x1024 .f32) (x3 : Vec F S1x1024 .f32) (x4 : Vec F S1x1024 .i32) (x5 : Vec F S1x1024 .i32) (xs0 : Vec F S1024x1 .f32) (xs1 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 x4 x5) (k0_pay10 x0 x1 x2 x3) (Scalar.ofBits .f32 0x00000000#32) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x512) hz, View.ld_unit_zero (S := S1x1024) hz]

/-- … and writes the first running sum, laid as a row and scaled, into the first output block … -/
theorem outS_last (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x512 .bf16) (x1 : Vec F S1024x512 .bf16) (x2 : Vec F S1x1024 .f32) (x3 : Vec F S1x1024 .f32) (x4 : Vec F S1x1024 .i32) (x5 : Vec F S1x1024 .i32) (xs0 : Vec F S1024x1 .f32) (xs1 : Vec F S1024x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay3 (k0_pay1 (k0_pay9 x0 x1 x2 x3 x4 x5) xs0) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x512) hz, View.ld_unit_zero (S := S1x1024) hz]

/-- … and the second into the second output block. -/
theorem outC_last (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x512 .bf16) (x1 : Vec F S1024x512 .bf16) (x2 : Vec F S1x1024 .f32) (x3 : Vec F S1x1024 .f32) (x4 : Vec F S1x1024 .i32) (x5 : Vec F S1x1024 .i32) (xs0 : Vec F S1024x1 .f32) (xs1 : Vec F S1024x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay4 (k0_pay2 (k0_pay8 x4 x5) (k0_pay10 x0 x1 x2 x3) (Scalar.ofBits .f32 0x00000000#32) xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x512) hz, View.ld_unit_zero (S := S1x1024) hz]

end Cert.KernelIdeal.Loss
end
-- ==== Proof.LibColumnLayout.lean ====
/-
  Column forms of two layout operations, read at an index built from coordinates.

  A sum over the last axis taken with the reduced axis kept (a column of row sums) meets two layout operations the
  library reads only in their row forms: the cast of a vector `[a]` to a column `[a, 1]`, and the broadcast of a column
  `[a, 1]` across `b` columns to `[a, b]`. Both read, at `(i, ·)`, the operand's entry of row `i`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- A vector `[a]` cast to a column `[a, 1]` reads, at `(i, u)`, the operand at `i`, whatever the unit coordinate `u`:
    both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.Spec.lean ====
/-
  The mathematics both programs compute, as functions of the four argument arrays over the extended reals.

  Inputs: two embedding matrices `s`, `t` (8192 rows of 512 reals each) and two section labels per row.
  For a source row `r` and a target row `u`:
    sqn x r      = ∑ₖ x[r,k]²                      the squared norm of a row
    gram s t r u = ∑ₖ s[r,k] · t[u,k]               the inner product of two rows
    same a b r u = the one-bit word "the labels agree"
  The squared distance of the pair is written in two arrangements,
    d2K = max (sqn s r / 512 + sqn t u / 512 − gram · 2⁻⁸) 0
    d2R = max (sqn s r + sqn t u − 2 · gram) 0 / 512
  equal when every entry is a real number (Law.lean) — over the extended reals the division does not
  distribute over a sum that meets an infinity. From a squared distance `d` the pair contributes `d` to the
  first loss when the labels agree and `(max (½ − √d) 0)²` to the second when they do not; each loss of row
  `r` is the sum of the contributions over all 8192 target rows, times 2⁻¹³ in one arrangement (the target
  rows taken in 8 groups of 1024) and divided by 8192 in the other.
-/
import Idealize.ShloMosaic.PureOps.Ideal
import Idealize.ShloMosaic.Lib.ValueIdx

noncomputable section

open scoped BigOperators

namespace Cert.PairLoss

open Idealize.ShloMosaic Idealize.ShloMosaic.ValueIdx

/-- An embedding matrix: 8192 rows of 512 extended reals. -/
abbrev Emb : Type := (⟨2, ![8192, 512]⟩ : Shape).Idx → EReal
/-- One 32-bit section label per row. -/
abbrev Sec : Type := (⟨1, ![8192]⟩ : Shape).Idx → BitVec 32

/-- The float words the programs spell (their values are read once, in Law.lean). -/
abbrev w512 : EReal := Ideal.ofBits .f32 0x44000000#32
abbrev w2m8 : EReal := Ideal.ofBits .f32 0x3B800000#32
abbrev w2 : EReal := Ideal.ofBits .f32 0x40000000#32
abbrev whalf : EReal := Ideal.ofBits .f32 0x3F000000#32
abbrev w8192 : EReal := Ideal.ofBits .f32 0x46000000#32
abbrev w2m13 : EReal := Ideal.ofBits .f32 0x39000000#32

/-- The squared norm of row `r`. -/
def sqn (x : Emb) (r : Fin 8192) : EReal := ∑ k : Fin 512, x (ix2 r k) * x (ix2 r k)
/-- The inner product of row `r` of `s` with row `u` of `t`. -/
def gram (s t : Emb) (r u : Fin 8192) : EReal := ∑ k : Fin 512, s (ix2 r k) * t (ix2 u k)
/-- Whether source row `r` and target row `u` carry the same label, as a one-bit word. -/
def same (a b : Sec) (r u : Fin 8192) : BitVec 1 := IntOp.cmpi .eq (a (ix1 r)) (b (ix1 u))

/-- The squared distance with each term divided by 512 before the sum. -/
def d2K (s t : Emb) (r u : Fin 8192) : EReal :=
  max (Ideal.div (sqn s r) w512 + Ideal.div (sqn t u) w512 - gram s t r u * w2m8) 0
/-- The squared distance with the division by 512 after the sum and the clamp. -/
def d2R (s t : Emb) (r u : Fin 8192) : EReal :=
  Ideal.div (max (sqn s r + sqn t u - w2 * gram s t r u) 0) w512

/-- The margin term of a squared distance `d`: `(max (½ − √d) 0)²`. -/
def hinge (d : EReal) : EReal := max (whalf - Ideal.sqrt d) 0 * max (whalf - Ideal.sqrt d) 0

/-- A pair's contribution to the first loss: its squared distance when the labels agree. -/
def termS (d2 : Fin 8192 → Fin 8192 → EReal) (a b : Sec) (r u : Fin 8192) : EReal :=
  Scalar.select (same a b r u) (d2 r u) 0
/-- A pair's contribution to the second loss: its margin term when the labels differ. -/
def termC (d2 : Fin 8192 → Fin 8192 → EReal) (a b : Sec) (r u : Fin 8192) : EReal :=
  Scalar.select (same a b r u) 0 (hinge (d2 r u))

/-- Target row `q` of group `j` (8 groups of 1024 rows). -/
def grp (j : Fin 8) (q : Fin 1024) : Fin 8192 := ⟨1024 * j.val + q.val, by have := j.isLt; have := q.isLt; omega⟩

/-- First loss, grouped arrangement: the 8 group sums added, times 2⁻¹³. -/
def lossSK (s t : Emb) (a b : Sec) (r : Fin 8192) : EReal :=
  (∑ j : Fin 8, ∑ q : Fin 1024, termS (d2K s t) a b r (grp j q)) * w2m13
/-- Second loss, grouped arrangement. -/
def lossCK (s t : Emb) (a b : Sec) (r : Fin 8192) : EReal :=
  (∑ j : Fin 8, ∑ q : Fin 1024, termC (d2K s t) a b r (grp j q)) * w2m13
/-- First loss, flat arrangement: one sum over the 8192 target rows, divided by 8192. -/
def lossSR (s t : Emb) (a b : Sec) (r : Fin 8192) : EReal :=
  Ideal.div (∑ u : Fin 8192, termS (d2R s t) a b r u) w8192
/-- Second loss, flat arrangement. -/
def lossCR (s t : Emb) (a b : Sec) (r : Fin 8192) : EReal :=
  Ideal.div (∑ u : Fin 8192, termC (d2R s t) a b r u) w8192

/-- Every entry of a matrix is a real number. -/
def Finite (x : Emb) : Prop := ∀ i, ∃ v : ℝ, x i = (v : EReal)

end Cert.PairLoss

end
-- ==== Proof.Payload.lean ====
import proofs.«118512_j80315888435505_2_alg».proof.Proof.Gen.KernelIdeal.Skeleton
import proofs.«118512_j80315888435505_2_alg».proof.Proof.LibColumnLayout
import proofs.«118512_j80315888435505_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Loss

open Cert.KernelIdeal Cert.KernelIdeal.Gen Idealize.ShloMosaic Idealize.ShloMosaic.ValueIdx Idealize.ShloMosaic.ColumnLayout Cert.PairLoss

/-! ## The block product: row `p` of the first block against row `q` of the second -/

theorem lhs_row (i : S1024x1024.Idx) (q : dot_S1024x512_S1024x512_S1024x1024_1_1_0_0_n_n.contr.Idx) : (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem rhs_row (i : S1024x1024.Idx) (q : dot_S1024x512_S1024x512_S1024x1024_1_1_0_0_n_n.contr.Idx) : (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- The matrix product of two blocks into a zero accumulator, both contracted over their 512 columns: at `(p, q)`
    the inner product of row `p` of the left block with row `q` of the right one. -/
theorem gram_block (x0 x1 : FVec Ideal S1024x512 .bf16) (p q : Fin 1024) :
    matmul dot_S1024x512_S1024x512_S1024x1024_1_1_0_0_n_n none x0 x1 (constant (F := Ideal) S1024x1024 .f32 0x00000000#32) (ix2 p q)
      = ∑ k : Fin 512, x0 (ix2 p k) * x1 (ix2 q k) := by
  refine (Ideal.matmul_constant_zero_apply dot_S1024x512_S1024x512_S1024x1024_1_1_0_0_n_n none x0 x1 (ix2 p q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_row _ _
    | ⟨1, _⟩ => exact (dot_S1024x512_S1024x512_S1024x1024_1_1_0_0_n_n.lhsIdx_val_of_single rfl _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_row _ _
    | ⟨1, _⟩ => exact (dot_S1024x512_S1024x512_S1024x1024_1_1_0_0_n_n.rhsIdx_val_of_single rfl _ _).trans hk)
  rw [el, er]

/-- A sum along the rows of a square block, from the zero word: at row `p` the sum of that row's 1024 entries. -/
theorem rowsum_block (src : FVec Ideal S1024x1024 .f32) (hφ : FKind.Formats FTy.f32) (hacc : (0x00000000#32 : BitVec 32) = 0x00000000#32) (p : Fin 1024) :
    multiReduction .add [1] S1024 src 0x00000000#32 reduces_S1024x1024_S1024 hφ hacc (ix1 p) = ∑ q : Fin 1024, src (ix2 p q) := by
  refine (Ideal.multiReduction_add_single src 0x00000000#32 reduces_S1024x1024_S1024 hφ hacc (ix1 p)).trans ?_
  refine Finset.sum_congr rfl fun k _ => congrArg src (funext fun a => Fin.ext ?_)
  match a with
  | ⟨0, _⟩ => rfl
  | ⟨1, _⟩ => rfl

/-! ## The payloads at an index -/

section
variable (x0 x1 : FVec Ideal S1024x512 .bf16) (x2 x3 : FVec Ideal S1x1024 .f32) (x4 x5 : IVec S1x1024 32)

/-- The clamped squared distance of row `p` of the source block against row `q` of the target block. -/
def d2blk (p q : Fin 1024) : EReal :=
  max (x2 (ix2 (0 : Fin 1) p) + x3 (ix2 (0 : Fin 1) q) - (∑ k : Fin 512, x0 (ix2 p k) * x1 (ix2 q k)) * w2m8) 0

theorem pay7_apply (p q : Fin 1024) : k0_pay7 (F := Ideal) x0 x1 x2 x3 (ix2 p q) = d2blk x0 x1 x2 x3 p q := by
  unfold k0_pay7 d2blk
  (try dsimp only)
  simp only [shapeCast_self, maximumf_apply, subf_apply, addf_apply, mulf_apply, broadcast_apply, broadcastTo_a1_ab_apply, transpose_ix2_apply, broadcastTo_1b_ab_apply, gram_block, Ideal.ofBits_def, Ideal.ofBits_zero_f32]
  rw [transpose_ix2_apply (a := 1) (b := 1024) x2 transposes_S1x1024_p1_0_S1024x1 p (0 : Fin 1)]

/-- Whether row `p` of the source block and row `q` of the target block carry the same label. -/
def sameblk (p q : Fin 1024) : BitVec 1 := IntOp.cmpi .eq (x4 (ix2 (0 : Fin 1) p)) (x5 (ix2 (0 : Fin 1) q))

theorem pay8_apply (p q : Fin 1024) : k0_pay8 (F := Ideal) x4 x5 (ix2 p q) = sameblk x4 x5 p q := by
  unfold k0_pay8 sameblk
  (try dsimp only)
  show IntOp.cmpi .eq (broadcastTo S1024x1024 (transpose S1024x1 [1, 0] (shapeCast S1x1024 x4 shapeCasts_S1x1024_S1x1024) transposes_S1x1024_p1_0_S1024x1) broadcasts_S1024x1_S1024x1024 (ix2 p q))
      (broadcastTo S1024x1024 (shapeCast S1x1024 x5 shapeCasts_S1x1024_S1x1024) broadcasts_S1x1024_S1024x1024 (ix2 p q)) = _
  simp only [shapeCast_self, broadcastTo_a1_ab_apply, broadcastTo_1b_ab_apply]
  rw [transpose_ix2_apply (a := 1) (b := 1024) x4 transposes_S1x1024_p1_0_S1024x1 p (0 : Fin 1)]

/-- This block pair's share of row `p`'s first loss: the squared distances of the agreeing pairs, summed over the target rows. -/
def partS (p : Fin 1024) : EReal := ∑ q : Fin 1024, Scalar.select (sameblk x4 x5 p q) (d2blk x0 x1 x2 x3 p q) 0
/-- This block pair's share of row `p`'s second loss: the margin terms of the disagreeing pairs. -/
def partC (p : Fin 1024) : EReal := ∑ q : Fin 1024, Scalar.select (sameblk x4 x5 p q) 0 (hinge (d2blk x0 x1 x2 x3 p q))

theorem pay9_apply (p : Fin 1024) (u : Fin 1) : k0_pay9 (F := Ideal) x0 x1 x2 x3 x4 x5 (ix2 p u) = partS x0 x1 x2 x3 x4 x5 p := by
  unfold k0_pay9 partS
  (try dsimp only)
  refine (shapeCast_a_a1_apply _ shapeCasts_S1024_S1024x1 p u).trans ?_
  refine (rowsum_block _ _ _ p).trans ?_
  refine Finset.sum_congr rfl fun q _ => ?_
  rw [select_apply, pay8_apply, pay7_apply, broadcast_apply]
  show Scalar.select _ _ (Ideal.ofBits .f32 0x00000000#32) = _
  rw [Ideal.ofBits_zero_f32]

theorem pay10_apply (p q : Fin 1024) : k0_pay10 (F := Ideal) x0 x1 x2 x3 (ix2 p q) = whalf - Ideal.sqrt (d2blk x0 x1 x2 x3 p q) := by
  unfold k0_pay10
  (try dsimp only)
  show Ideal.ofBits .f32 0x3F000000#32 - Ideal.sqrt (k0_pay7 (F := Ideal) x0 x1 x2 x3 (ix2 p q)) = _
  rw [pay7_apply]

/-- The first running sum after a grid point: what it held, plus this block pair's share. -/
theorem accS_step (xs : FVec Ideal S1024x1 .f32) (p : Fin 1024) (u : Fin 1) :
    k0_pay1 (F := Ideal) (k0_pay9 x0 x1 x2 x3 x4 x5) xs (ix2 p u) = xs (ix2 p u) + partS x0 x1 x2 x3 x4 x5 p := by
  unfold k0_pay1
  (try dsimp only)
  rw [shapeCast_self, addf_apply, pay9_apply]

/-- The second running sum after a grid point: what it held, plus this block pair's share. -/
theorem accC_step (xs : FVec Ideal S1024x1 .f32) (p : Fin 1024) (u : Fin 1) :
    k0_pay2 (F := Ideal) (k0_pay8 (F := Ideal) x4 x5) (k0_pay10 x0 x1 x2 x3) (Scalar.ofBits .f32 0x00000000#32) xs (ix2 p u) = xs (ix2 p u) + partC x0 x1 x2 x3 x4 x5 p := by
  unfold k0_pay2 partC
  (try dsimp only)
  rw [shapeCast_self, addf_apply]
  refine congrArg (xs (ix2 p u) + ·) ?_
  refine (shapeCast_a_a1_apply _ shapeCasts_S1024_S1024x1 p u).trans ?_
  refine (rowsum_block _ _ _ p).trans ?_
  refine Finset.sum_congr rfl fun q _ => ?_
  rw [select_apply, pay8_apply, broadcast_apply, mulf_apply, maximumf_apply, broadcast_apply, pay10_apply]
  show Scalar.select _ (Ideal.ofBits .f32 0x00000000#32) (max _ (Ideal.ofBits .f32 0x00000000#32) * max _ (Ideal.ofBits .f32 0x00000000#32)) = _
  rw [Ideal.ofBits_zero_f32]
  rfl
end

/-- The column the running sums restart from is zero. -/
theorem pay5_apply (i : S1024x1.Idx) : k0_pay5 (F := Ideal) i = 0 := by
  unfold k0_pay5
  (try dsimp only)
  rw [shapeCast_self, broadcast_apply]
  exact Ideal.ofBits_zero_f32
theorem pay6_apply (i : S1024x1.Idx) : k0_pay6 (F := Ideal) i = 0 := by
  unfold k0_pay6
  (try dsimp only)
  rw [shapeCast_self, broadcast_apply]
  exact Ideal.ofBits_zero_f32

/-- An output row: the running-sum column laid as a row, times 2⁻¹³. -/
theorem pay3_apply (v : FVec Ideal S1024x1 .f32) (p : Fin 1024) : k0_pay3 (F := Ideal) v (ix2 (0 : Fin 1) p) = v (ix2 p (0 : Fin 1)) * w2m13 := by
  unfold k0_pay3
  (try dsimp only)
  rw [mulf_apply, broadcast_apply, transpose_ix2_apply (a := 1024) (b := 1) v transposes_S1024x1_p1_0_S1x1024 (0 : Fin 1) p]
  rfl
theorem pay4_apply (v : FVec Ideal S1024x1 .f32) (p : Fin 1024) : k0_pay4 (F := Ideal) v (ix2 (0 : Fin 1) p) = v (ix2 p (0 : Fin 1)) * w2m13 := by
  unfold k0_pay4
  (try dsimp only)
  rw [mulf_apply, broadcast_apply, transpose_ix2_apply (a := 1024) (b := 1) v transposes_S1024x1_p1_0_S1x1024 (0 : Fin 1) p]
  rfl

end Cert.KernelIdeal.Loss
end
-- ==== Proof.Invariant.lean ====
import proofs.«118512_j80315888435505_2_alg».proof.Proof.Pieces
import proofs.«118512_j80315888435505_2_alg».proof.Proof.Payload

noncomputable section

open scoped BigOperators
open Idealize.ShloMosaic Idealize.ShloMosaic.TcCoe Idealize.SL.Sem
open Idealize.ShloMosaic.Pipeline (Dat)

namespace Cert.KernelIdeal.Loss

open Cert.KernelIdeal Cert.KernelIdeal.Gen Idealize.ShloMosaic.ValueIdx Cert.PairLoss

variable (m : (ℓ : Loc nD τ sig) → Buf (Elt Ideal) ℓ)

/-! ## The running sums, grid point by grid point

After the body at point `t` the two running-sum columns hold: at the first target group the column of this
point's shares over the zero column; at every other group what the point before left, plus this point's shares.
At the last target group the two output rows are those columns laid as rows and scaled. -/

theorem sumS_first (c : Dev nD) (t : Fin cfg0.N) (h0 : t.val % 8 = 0) (h1 : ¬t.val % 8 = 7) :
    (outsAt0 m c t.val t.isLt).2.2.1 = k0_pay1 (k0_pay9 (iblk m c 0 t) (iblk m c 1 t) (iblk m c 2 t) (iblk m c 3 t) (iblk m c 4 t) (iblk m c 5 t)) (k0_pay5 (F := Ideal)) := by
  have e := congrArg (fun X => X.2.2.1) (outsAt0_A m c t h0 h1)
  dsimp only at e
  exact e.trans (accS_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))

theorem sumC_first (c : Dev nD) (t : Fin cfg0.N) (h0 : t.val % 8 = 0) (h1 : ¬t.val % 8 = 7) :
    (outsAt0 m c t.val t.isLt).2.2.2 = k0_pay2 (k0_pay8 (iblk m c 4 t) (iblk m c 5 t)) (k0_pay10 (iblk m c 0 t) (iblk m c 1 t) (iblk m c 2 t) (iblk m c 3 t)) (Scalar.ofBits .f32 0x00000000#32) (k0_pay6 (F := Ideal)) := by
  have e := congrArg (fun X => X.2.2.2) (outsAt0_A m c t h0 h1)
  dsimp only at e
  exact e.trans (accC_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))

theorem sumS_mid (c : Dev nD) (t : Fin cfg0.N) (h0 : ¬t.val % 8 = 0) (h1 : ¬t.val % 8 = 7) :
    (outsAt0 m c t.val t.isLt).2.2.1 = k0_pay1 (k0_pay9 (iblk m c 0 t) (iblk m c 1 t) (iblk m c 2 t) (iblk m c 3 t) (iblk m c 4 t) (iblk m c 5 t)) (outsAt0 m c (t.val - 1) (Nat.lt_of_le_of_lt (Nat.sub_le _ _) t.isLt)).2.2.1 := by
  have e := congrArg (fun X => X.2.2.1) (outsAt0_B m c t h0 h1)
  dsimp only at e
  exact e.trans (accS_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)

theorem sumC_mid (c : Dev nD) (t : Fin cfg0.N) (h0 : ¬t.val % 8 = 0) (h1 : ¬t.val % 8 = 7) :
    (outsAt0 m c t.val t.isLt).2.2.2 = k0_pay2 (k0_pay8 (iblk m c 4 t) (iblk m c 5 t)) (k0_pay10 (iblk m c 0 t) (iblk m c 1 t) (iblk m c 2 t) (iblk m c 3 t)) (Scalar.ofBits .f32 0x00000000#32) (outsAt0 m c (t.val - 1) (Nat.lt_of_le_of_lt (Nat.sub_le _ _) t.isLt)).2.2.2 := by
  have e := congrArg (fun X => X.2.2.2) (outsAt0_B m c t h0 h1)
  dsimp only at e
  exact e.trans (accC_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)

theorem sumS_last (c : Dev nD) (t : Fin cfg0.N) (h0 : ¬t.val % 8 = 0) (h1 : t.val % 8 = 7) :
    (outsAt0 m c t.val t.isLt).2.2.1 = k0_pay1 (k0_pay9 (iblk m c 0 t) (iblk m c 1 t) (iblk m c 2 t) (iblk m c 3 t) (iblk m c 4 t) (iblk m c 5 t)) (outsAt0 m c (t.val - 1) (Nat.lt_of_le_of_lt (Nat.sub_le _ _) t.isLt)).2.2.1 := by
  have e := congrArg (fun X => X.2.2.1) (outsAt0_C m c t h0 h1)
  dsimp only at e
  exact e.trans (accS_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)

theorem sumC_last (c : Dev nD) (t : Fin cfg0.N) (h0 : ¬t.val % 8 = 0) (h1 : t.val % 8 = 7) :
    (outsAt0 m c t.val t.isLt).2.2.2 = k0_pay2 (k0_pay8 (iblk m c 4 t) (iblk m c 5 t)) (k0_pay10 (iblk m c 0 t) (iblk m c 1 t) (iblk m c 2 t) (iblk m c 3 t)) (Scalar.ofBits .f32 0x00000000#32) (outsAt0 m c (t.val - 1) (Nat.lt_of_le_of_lt (Nat.sub_le _ _) t.isLt)).2.2.2 := by
  have e := congrArg (fun X => X.2.2.2) (outsAt0_C m c t h0 h1)
  dsimp only at e
  exact e.trans (accC_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)

theorem rowS_last (c : Dev nD) (t : Fin cfg0.N) (h0 : ¬t.val % 8 = 0) (h1 : t.val % 8 = 7) :
    (outsAt0 m c t.val t.isLt).1 = k0_pay3 (k0_pay1 (k0_pay9 (iblk m c 0 t) (iblk m c 1 t) (iblk m c 2 t) (iblk m c 3 t) (iblk m c 4 t) (iblk m c 5 t)) (outsAt0 m c (t.val - 1) (Nat.lt_of_le_of_lt (Nat.sub_le _ _) t.isLt)).2.2.1) := by
  have e := congrArg (fun X => X.1) (outsAt0_C m c t h0 h1)
  dsimp only at e
  exact e.trans (outS_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)

theorem rowC_last (c : Dev nD) (t : Fin cfg0.N) (h0 : ¬t.val % 8 = 0) (h1 : t.val % 8 = 7) :
    (outsAt0 m c t.val t.isLt).2.1 = k0_pay4 (k0_pay2 (k0_pay8 (iblk m c 4 t) (iblk m c 5 t)) (k0_pay10 (iblk m c 0 t) (iblk m c 1 t) (iblk m c 2 t) (iblk m c 3 t)) (Scalar.ofBits .f32 0x00000000#32) (outsAt0 m c (t.val - 1) (Nat.lt_of_le_of_lt (Nat.sub_le _ _) t.isLt)).2.2.2) := by
  have e := congrArg (fun X => X.2.1) (outsAt0_C m c t h0 h1)
  dsimp only at e
  exact e.trans (outC_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)

/-! ## The running sums in closed form -/

/-- Grid point `n`'s share of row `p`'s first loss (zero past the grid's 64 points). -/
def shareS (c : Dev nD) (n : ℕ) (p : Fin 1024) : EReal :=
  if h : n < cfg0.N then partS (iblk m c 0 ⟨n, h⟩) (iblk m c 1 ⟨n, h⟩) (iblk m c 2 ⟨n, h⟩) (iblk m c 3 ⟨n, h⟩) (iblk m c 4 ⟨n, h⟩) (iblk m c 5 ⟨n, h⟩) p else 0
/-- Grid point `n`'s share of row `p`'s second loss. -/
def shareC (c : Dev nD) (n : ℕ) (p : Fin 1024) : EReal :=
  if h : n < cfg0.N then partC (iblk m c 0 ⟨n, h⟩) (iblk m c 1 ⟨n, h⟩) (iblk m c 2 ⟨n, h⟩) (iblk m c 3 ⟨n, h⟩) (iblk m c 4 ⟨n, h⟩) (iblk m c 5 ⟨n, h⟩) p else 0

/-- The first running sum after point `n`: restarted at every eighth point, a share added at each. -/
def runS (c : Dev nD) : ℕ → Fin 1024 → EReal
  | 0 => fun p => 0 + shareS m c 0 p
  | n + 1 => fun p => (if (n + 1) % 8 = 0 then 0 else runS c n p) + shareS m c (n + 1) p
/-- The second running sum after point `n`. -/
def runC (c : Dev nD) : ℕ → Fin 1024 → EReal
  | 0 => fun p => 0 + shareC m c 0 p
  | n + 1 => fun p => (if (n + 1) % 8 = 0 then 0 else runC c n p) + shareC m c (n + 1) p

/-- What the two running-sum columns hold after point `n` is `runS`, `runC`: by induction on the point. -/
theorem sums_eq (c : Dev nD) : ∀ (n : ℕ) (h : n < cfg0.N) (p : Fin 1024) (u : Fin 1),
    (outsAt0 m c n h).2.2.1 (ix2 p u) = runS m c n p ∧ (outsAt0 m c n h).2.2.2 (ix2 p u) = runC m c n p
  | 0, h, p, u => by
    have h0 : (⟨0, h⟩ : Fin cfg0.N).val % 8 = 0 := Nat.zero_mod 8
    have h1 : ¬(⟨0, h⟩ : Fin cfg0.N).val % 8 = 7 := by rw [h0]; decide
    constructor
    · refine (congrFun (sumS_first m c ⟨0, h⟩ h0 h1) (ix2 p u)).trans ?_
      refine (accS_step (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay5 (F := Ideal)) p u).trans ?_
      rw [pay5_apply]
      simp only [runS, shareS, dif_pos h]
    · refine (congrFun (sumC_first m c ⟨0, h⟩ h0 h1) (ix2 p u)).trans ?_
      refine (accC_step (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay6 (F := Ideal)) p u).trans ?_
      rw [pay6_apply]
      simp only [runC, shareC, dif_pos h]
  | n + 1, h, p, u => by
    have ih := sums_eq c n (Nat.lt_of_succ_lt h) p u
    by_cases h0 : (n + 1) % 8 = 0
    · have h1 : ¬(n + 1) % 8 = 7 := by omega
      constructor
      · refine (congrFun (sumS_first m c ⟨n + 1, h⟩ h0 h1) (ix2 p u)).trans ?_
        refine (accS_step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (k0_pay5 (F := Ideal)) p u).trans ?_
        rw [pay5_apply]
        simp only [runS, shareS, dif_pos h, if_pos h0]
      · refine (congrFun (sumC_first m c ⟨n + 1, h⟩ h0 h1) (ix2 p u)).trans ?_
        refine (accC_step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (k0_pay6 (F := Ideal)) p u).trans ?_
        rw [pay6_apply]
        simp only [runC, shareC, dif_pos h, if_pos h0]
    · by_cases h1 : (n + 1) % 8 = 7
      · constructor
        · refine (congrFun (sumS_last m c ⟨n + 1, h⟩ h0 h1) (ix2 p u)).trans ?_
          refine (accS_step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.1 p u).trans ?_
          rw [ih.1]
          simp only [runS, shareS, dif_pos h, if_neg h0]
        · refine (congrFun (sumC_last m c ⟨n + 1, h⟩ h0 h1) (ix2 p u)).trans ?_
          refine (accC_step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.2 p u).trans ?_
          rw [ih.2]
          simp only [runC, shareC, dif_pos h, if_neg h0]
      · constructor
        · refine (congrFun (sumS_mid m c ⟨n + 1, h⟩ h0 h1) (ix2 p u)).trans ?_
          refine (accS_step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.1 p u).trans ?_
          rw [ih.1]
          simp only [runS, shareS, dif_pos h, if_neg h0]
        · refine (congrFun (sumC_mid m c ⟨n + 1, h⟩ h0 h1) (ix2 p u)).trans ?_
          refine (accC_step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.2.2 p u).trans ?_
          rw [ih.2]
          simp only [runC, shareC, dif_pos h, if_neg h0]

/-- Within source group `i` the first running sum after the `k`-th target group is the sum of the shares so far. -/
theorem runS_group (c : Dev nD) (i : ℕ) (p : Fin 1024) : ∀ k : ℕ, k < 8 →
    runS m c (8 * i + k) p = ∑ j ∈ Finset.range (k + 1), shareS m c (8 * i + j) p
  | 0, _ => by
    rw [Finset.sum_range_one]
    cases i with
    | zero => simp only [runS, Nat.mul_zero, Nat.add_zero, zero_add]
    | succ i =>
      have e : 8 * (i + 1) + 0 = (8 * i + 7) + 1 := by omega
      rw [e]
      simp only [runS]
      rw [if_pos (by omega), zero_add]
  | k + 1, hk => by
    have e : 8 * i + (k + 1) = (8 * i + k) + 1 := by omega
    rw [Finset.sum_range_succ, ← runS_group c i p k (by omega), e]
    simp only [runS]
    rw [if_neg (by omega)]

theorem runC_group (c : Dev nD) (i : ℕ) (p : Fin 1024) : ∀ k : ℕ, k < 8 →
    runC m c (8 * i + k) p = ∑ j ∈ Finset.range (k + 1), shareC m c (8 * i + j) p
  | 0, _ => by
    rw [Finset.sum_range_one]
    cases i with
    | zero => simp only [runC, Nat.mul_zero, Nat.add_zero, zero_add]
    | succ i =>
      have e : 8 * (i + 1) + 0 = (8 * i + 7) + 1 := by omega
      rw [e]
      simp only [runC]
      rw [if_pos (by omega), zero_add]
  | k + 1, hk => by
    have e : 8 * i + (k + 1) = (8 * i + k) + 1 := by omega
    rw [Finset.sum_range_succ, ← runC_group c i p k (by omega), e]
    simp only [runC]
    rw [if_neg (by omega)]

end Cert.KernelIdeal.Loss
end
-- ==== Proof.Blocks.lean ====
import proofs.«118512_j80315888435505_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Loss

open Cert.KernelIdeal Cert.KernelIdeal.Gen Idealize.ShloMosaic.ValueIdx

variable {F : FTy → Type} [FloatOps F]
variable (m : (ℓ : Loc nD τ sig) → Buf (Elt F) ℓ)

/-! ## Which rows a grid point's blocks hold

The grid is 8 × 8, the target group running fastest: point `t` pairs source group `t / 8` with target group
`t % 8`. Its source blocks hold rows `1024 (t / 8) + p`, its target blocks rows `1024 (t % 8) + q`. -/

theorem lt64 (t : Fin cfg0.N) : t.val < 64 := lt_of_lt_of_eq t.isLt (show cfg0.N = 64 from N_0)

/-- Row `p` of point `t`'s source blocks, in the whole arrays. -/
def srcRow (t : Fin cfg0.N) (p : Fin 1024) : Fin 8192 := ⟨1024 * (t.val / 8) + p.val, by have := lt64 t; have := p.isLt; omega⟩
/-- Row `q` of point `t`'s target blocks, in the whole arrays. -/
def tgtRow (t : Fin cfg0.N) (q : Fin 1024) : Fin 8192 := ⟨1024 * (t.val % 8) + q.val, by have := q.isLt; omega⟩

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = 0 ∧ win0_2.index t 1 = t.val / 8 :=
  (by decide +kernel : ∀ t : Fin grid0.N, win0_2.index t 0 = 0 ∧ win0_2.index t 1 = t.val / 8)
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx4 : ∀ t : Fin cfg0.N, win0_4.index t 0 = 0 ∧ win0_4.index t 1 = t.val / 8 :=
  (by decide +kernel : ∀ t : Fin grid0.N, win0_4.index t 0 = 0 ∧ win0_4.index t 1 = t.val / 8)
theorem idx5 : ∀ t : Fin cfg0.N, win0_5.index t 0 = 0 ∧ win0_5.index t 1 = t.val % 8 :=
  (by decide +kernel : ∀ t : Fin grid0.N, win0_5.index t 0 = 0 ∧ win0_5.index t 1 = t.val % 8)
theorem idx6 : ∀ t : Fin cfg0.N, win0_6.index t 0 = 0 ∧ win0_6.index t 1 = t.val / 8 :=
  (by decide +kernel : ∀ t : Fin grid0.N, win0_6.index t 0 = 0 ∧ win0_6.index t 1 = t.val / 8)
theorem idx7 : ∀ t : Fin cfg0.N, win0_7.index t 0 = 0 ∧ win0_7.index t 1 = t.val / 8 :=
  (by decide +kernel : ∀ t : Fin grid0.N, win0_7.index t 0 = 0 ∧ win0_7.index t 1 = t.val / 8)

/-- The source embedding block of point `t` at `(p, k)` is the array's row `1024 (t / 8) + p` at column `k`. -/
theorem blk0 (c : Dev nD) (t : Fin cfg0.N) (p : Fin 1024) (k : Fin 512) :
    (iblk m c 0 t : Vec F S1024x512 .bf16) (ix2 p k) = V m c main_v10 (ix2 (srcRow t p) k) := by
  unfold iblk
  rw [View.read_apply]
  show V m c main_v10 _ = V m c main_v10 _
  refine congrArg (V m c main_v10) (funext fun a => Fin.ext ?_)
  match a with
  | ⟨0, _⟩ => show win0_0.index t 0 * 1024 + 1 * p.val = 1024 * (t.val / 8) + p.val; rw [(idx0 t).1]; omega
  | ⟨1, _⟩ => show win0_0.index t 1 * 512 + 1 * k.val = k.val; rw [(idx0 t).2]; omega

/-- The target embedding block at `(q, k)` is the array's row `1024 (t % 8) + q` at column `k`. -/
theorem blk1 (c : Dev nD) (t : Fin cfg0.N) (q : Fin 1024) (k : Fin 512) :
    (iblk m c 1 t : Vec F S1024x512 .bf16) (ix2 q k) = V m c main_v11 (ix2 (tgtRow t q) k) := by
  unfold iblk
  rw [View.read_apply]
  show V m c main_v11 _ = V m c main_v11 _
  refine congrArg (V m c main_v11) (funext fun a => Fin.ext ?_)
  match a with
  | ⟨0, _⟩ => show win0_1.index t 0 * 1024 + 1 * q.val = 1024 * (t.val % 8) + q.val; rw [(idx1 t).1]; omega
  | ⟨1, _⟩ => show win0_1.index t 1 * 512 + 1 * k.val = k.val; rw [(idx1 t).2]; omega

/-- The source norm block (one row of 1024) at `p` is the norm row at `1024 (t / 8) + p`. -/
theorem blk2 (c : Dev nD) (t : Fin cfg0.N) (p : Fin 1024) :
    (iblk m c 2 t : Vec F S1x1024 .f32) (ix2 (0 : Fin 1) p) = V m c main_v4 (ix2 (0 : Fin 1) (srcRow t p)) := by
  unfold iblk
  rw [View.read_apply]
  show V m c main_v4 _ = V m c main_v4 _
  refine congrArg (V m c main_v4) (funext fun a => Fin.ext ?_)
  match a with
  | ⟨0, _⟩ => show win0_2.index t 0 * 1 + 1 * 0 = 0; rw [(idx2 t).1]
  | ⟨1, _⟩ => show win0_2.index t 1 * 1024 + 1 * p.val = 1024 * (t.val / 8) + p.val; rw [(idx2 t).2]; omega

/-- The target norm block at `q` is the norm row at `1024 (t % 8) + q`. -/
theorem blk3 (c : Dev nD) (t : Fin cfg0.N) (q : Fin 1024) :
    (iblk m c 3 t : Vec F S1x1024 .f32) (ix2 (0 : Fin 1) q) = V m c main_v9 (ix2 (0 : Fin 1) (tgtRow t q)) := by
  unfold iblk
  rw [View.read_apply]
  show V m c main_v9 _ = V m c main_v9 _
  refine congrArg (V m c main_v9) (funext fun a => Fin.ext ?_)
  match a with
  | ⟨0, _⟩ => show win0_3.index t 0 * 1 + 1 * 0 = 0; rw [(idx3 t).1]
  | ⟨1, _⟩ => show win0_3.index t 1 * 1024 + 1 * q.val = 1024 * (t.val % 8) + q.val; rw [(idx3 t).2]; omega

/-- The source label block at `p` is the label row at `1024 (t / 8) + p`. -/
theorem blk4 (c : Dev nD) (t : Fin cfg0.N) (p : Fin 1024) :
    (iblk m c 4 t : Vec F S1x1024 .i32) (ix2 (0 : Fin 1) p) = V m c main_v12 (ix2 (0 : Fin 1) (srcRow t p)) := by
  unfold iblk
  rw [View.read_apply]
  show V m c main_v12 _ = V m c main_v12 _
  refine congrArg (V m c main_v12) (funext fun a => Fin.ext ?_)
  match a with
  | ⟨0, _⟩ => show win0_4.index t 0 * 1 + 1 * 0 = 0; rw [(idx4 t).1]
  | ⟨1, _⟩ => show win0_4.index t 1 * 1024 + 1 * p.val = 1024 * (t.val / 8) + p.val; rw [(idx4 t).2]; omega

/-- The target label block at `q` is the label row at `1024 (t % 8) + q`. -/
theorem blk5 (c : Dev nD) (t : Fin cfg0.N) (q : Fin 1024) :
    (iblk m c 5 t : Vec F S1x1024 .i32) (ix2 (0 : Fin 1) q) = V m c main_v13 (ix2 (0 : Fin 1) (tgtRow t q)) := by
  unfold iblk
  rw [View.read_apply]
  show V m c main_v13 _ = V m c main_v13 _
  refine congrArg (V m c main_v13) (funext fun a => Fin.ext ?_)
  match a with
  | ⟨0, _⟩ => show win0_5.index t 0 * 1 + 1 * 0 = 0; rw [(idx5 t).1]
  | ⟨1, _⟩ => show win0_5.index t 1 * 1024 + 1 * q.val = 1024 * (t.val % 8) + q.val; rw [(idx5 t).2]; omega

end Cert.KernelIdeal.Loss
end
-- ==== Proof.HostBefore.lean ====
/-
  What the six arrays the region reads hold when it is entered, entry by entry, as functions of the four
  argument arrays.

  Before the region the program squares each matrix entry by entry, sums each row from zero, divides each row
  sum by 512 and lays the 8192 quotients out as one row; it re-encodes the two matrices in a narrower float
  format, which changes nothing over the extended reals; and it lays each label vector out as one row. So the
  two norm rows hold `sqn x r / 512` at column `r`, the two matrices are the arguments themselves, and the two
  label rows hold the labels.
-/
import proofs.«118512_j80315888435505_2_alg».proof.Proof.Gen.KernelIdeal.Frame
import proofs.«118512_j80315888435505_2_alg».proof.Proof.Spec
import Idealize.ShloMosaic.Lib.Pipeline.Value
import Idealize.ShloMosaic.Lib.StableHlo.Run
import Idealize.ShloMosaic.Lib.ValueLayout
import Idealize.ShloMosaic.Lib.IdealHost
import Idealize.ShloMosaic.PureOps.Ideal.Laws

noncomputable section

open scoped BigOperators

namespace Cert.KernelIdeal.Loss

open Cert.KernelIdeal Cert.KernelIdeal.Gen Cert.PairLoss Idealize.ShloMosaic Idealize.ShloMosaic.ValueIdx
  Idealize.ShloMosaic.TcCoe Idealize.SL.Sem Idealize.ShloMosaic.StableHlo

variable (m : (ℓ : Loc nD τ sig) → Buf (Elt Ideal) ℓ)

/-- The row sums of the squares of a matrix, from zero: entry `r` is the squared norm of row `r`. -/
theorem rowSum_apply (x : S8192x512.Idx → EReal) (r : Fin 8192) :
    Host.reduceAdd (F := Ideal) (φ := .f32) (mulf x x) (constant (F := Ideal) S_ .f32 0x00000000#32)
      Facts₀.reducesTo_S8192x512_S8192_d1 Facts₀.h_S_ (ix1 r) = sqn x r := by
  have hR : S8192x512.Reduces [1] S8192 := by decide
  simp only [Host.reduceAdd, Ideal.hostReduceAdd_def]
  rw [Ideal.hostReduceAdd_single Facts₀.reducesTo_S8192x512_S8192_d1 hR, constant_apply, Ideal.ofBits_zero_f32, zero_add]
  unfold sqn
  refine Finset.sum_congr rfl fun k _ => ?_
  have hk : hR.lift (ix1 r) k = ix2 r k :=
    funext fun a => Fin.ext (by match a with | ⟨0, _⟩ => rfl | ⟨1, _⟩ => rfl)
  rw [hk]
  rfl

/-- The norm row of a matrix: its row sums of squares, each divided by 512, laid out as one row. -/
def normRow (x : S8192x512.Idx → EReal) : S1x8192.Idx → EReal :=
  shapeCast S1x8192
    (Host.divf (F := Ideal) (φ := .f32)
      (Host.reduceAdd (F := Ideal) (φ := .f32) (mulf x x) (constant (F := Ideal) S_ .f32 0x00000000#32)
        Facts₀.reducesTo_S8192x512_S8192_d1 Facts₀.h_S_)
      (broadcastInDim S8192 ![] Facts₀.bcast_S_S8192 (constant (F := Ideal) S_ .f32 0x44000000#32)))
    Facts₀.shapeCasts_S8192_S1x8192

/-- Column `r` of the norm row is the squared norm of row `r` divided by 512. -/
theorem normRow_apply (x : S8192x512.Idx → EReal) (r : Fin 8192) :
    normRow x (ix2 (0 : Fin 1) r) = Ideal.div (sqn x r) w512 := by
  unfold normRow
  rw [shapeCast_a_1a_apply]
  show Ideal.div (Host.reduceAdd (F := Ideal) (φ := .f32) (mulf x x) (constant (F := Ideal) S_ .f32 0x00000000#32)
      Facts₀.reducesTo_S8192x512_S8192_d1 Facts₀.h_S_ (ix1 r))
    (broadcastInDim S8192 ![] Facts₀.bcast_S_S8192 (constant (F := Ideal) S_ .f32 0x44000000#32) (ix1 r)) = _
  rw [rowSum_apply, broadcastInDim_scalar_apply]
  rfl

/-- The first norm row holds, at column `r`, the squared norm of row `r` of the first matrix over 512. -/
theorem V_normS (c : Dev nD) (r : Fin 8192) :
    V m c main_v4 (ix2 (0 : Fin 1) r) = Ideal.div (sqn (m ((c : Thread nD τ).loc main_arg0)) r) w512 := by
  have e : (V m c main_v4 : S1x8192.Idx → EReal) = normRow (m ((c : Thread nD τ).loc main_arg0)) := by
    show StableHlo.after hostOps0 (fun b => m (c, b)) (Proc.devRef .tc main_v4) = _
    after_results
    rfl
  exact (congrFun e _).trans (normRow_apply _ r)

/-- The second norm row, likewise for the second matrix. -/
theorem V_normT (c : Dev nD) (r : Fin 8192) :
    V m c main_v9 (ix2 (0 : Fin 1) r) = Ideal.div (sqn (m ((c : Thread nD τ).loc main_arg1)) r) w512 := by
  have e : (V m c main_v9 : S1x8192.Idx → EReal) = normRow (m ((c : Thread nD τ).loc main_arg1)) := by
    show StableHlo.after hostOps0 (fun b => m (c, b)) (Proc.devRef .tc main_v9) = _
    after_results
    rfl
  exact (congrFun e _).trans (normRow_apply _ r)

/-- The re-encoded first matrix is the first matrix: over the extended reals the narrower format changes nothing. -/
theorem V_embS (c : Dev nD) (i : S8192x512.Idx) :
    V m c main_v10 i = m ((c : Thread nD τ).loc main_arg0) i := by
  have e : (V m c main_v10 : S8192x512.Idx → EReal)
      = truncf (F := Ideal) .bf16 (m ((c : Thread nD τ).loc main_arg0)) Facts₀.bitsLt_bf16_f32 := by
    show StableHlo.after hostOps0 (fun b => m (c, b)) (Proc.devRef .tc main_v10) = _
    after_results
  exact congrFun e i

/-- The re-encoded second matrix is the second matrix. -/
theorem V_embT (c : Dev nD) (i : S8192x512.Idx) :
    V m c main_v11 i = m ((c : Thread nD τ).loc main_arg1) i := by
  have e : (V m c main_v11 : S8192x512.Idx → EReal)
      = truncf (F := Ideal) .bf16 (m ((c : Thread nD τ).loc main_arg1)) Facts₀.bitsLt_bf16_f32 := by
    show StableHlo.after hostOps0 (fun b => m (c, b)) (Proc.devRef .tc main_v11) = _
    after_results
  exact congrFun e i

/-- The first label row holds, at column `r`, the label of row `r`. -/
theorem V_secS (c : Dev nD) (r : Fin 8192) :
    V m c main_v12 (ix2 (0 : Fin 1) r) = m ((c : Thread nD τ).loc main_arg2) (ix1 r) := by
  have e : (V m c main_v12 : S1x8192.Idx → BitVec 32)
      = shapeCast S1x8192 (m ((c : Thread nD τ).loc main_arg2)) Facts₀.shapeCasts_S8192_S1x8192 := by
    show StableHlo.after hostOps0 (fun b => m (c, b)) (Proc.devRef .tc main_v12) = _
    after_results
    rfl
  exact (congrFun e _).trans (shapeCast_a_1a_apply _ _ _ r)

/-- The second label row, likewise. -/
theorem V_secT (c : Dev nD) (r : Fin 8192) :
    V m c main_v13 (ix2 (0 : Fin 1) r) = m ((c : Thread nD τ).loc main_arg3) (ix1 r) := by
  have e : (V m c main_v13 : S1x8192.Idx → BitVec 32)
      = shapeCast S1x8192 (m ((c : Thread nD τ).loc main_arg3)) Facts₀.shapeCasts_S8192_S1x8192 := by
    show StableHlo.after hostOps0 (fun b => m (c, b)) (Proc.devRef .tc main_v13) = _
    after_results
    rfl
  exact (congrFun e _).trans (shapeCast_a_1a_apply _ _ _ r)

end Cert.KernelIdeal.Loss

end
-- ==== Proof.Global.lean ====
/-
  A grid point's block-local partial sums, read in the whole arrays.

  Grid point `t` pairs the source rows `1024 (t / 8) + p` with the target rows `1024 (t % 8) + q`. Each of its
  six blocks is a window of one of the arrays the region finds: the two matrices themselves, the two norm rows
  `sqn · / 512`, and the two label rows. So the clamped squared distance the point computes from its blocks at
  `(p, q)` is the grouped arrangement's squared distance of source row `srcRow t p` and target row `tgtRow t q`,
  its label test is theirs, and its two row sums are the sums of the pair contributions over the point's 1024
  target rows.
-/
import proofs.«118512_j80315888435505_2_alg».proof.Proof.Payload
import proofs.«118512_j80315888435505_2_alg».proof.Proof.Blocks
import proofs.«118512_j80315888435505_2_alg».proof.Proof.HostBefore
import proofs.«118512_j80315888435505_2_alg».proof.Proof.Spec

noncomputable section

open scoped BigOperators

namespace Cert.KernelIdeal.Loss

open Cert.KernelIdeal Cert.KernelIdeal.Gen Cert.PairLoss Idealize.ShloMosaic Idealize.ShloMosaic.ValueIdx
  Idealize.ShloMosaic.TcCoe Idealize.SL.Sem

/-! ## The block formulas under entrywise readings of the blocks -/

section
variable (x0 x1 : FVec Ideal S1024x512 .bf16) (x2 x3 : FVec Ideal S1x1024 .f32) (x4 x5 : IVec S1x1024 32)

/-- If the two matrix blocks are rows `r`-relative and `u`-relative windows of `s` and `t`, and the two norm blocks
    hold the squared norms over 512 there, the block's squared distance is the grouped arrangement's. -/
theorem d2blk_of (p q : Fin 1024) (s t : Emb) (r u : Fin 8192)
    (h0 : ∀ k, x0 (ix2 p k) = s (ix2 r k)) (h1 : ∀ k, x1 (ix2 q k) = t (ix2 u k))
    (h2 : x2 (ix2 (0 : Fin 1) p) = Ideal.div (sqn s r) w512)
    (h3 : x3 (ix2 (0 : Fin 1) q) = Ideal.div (sqn t u) w512) :
    d2blk x0 x1 x2 x3 p q = d2K s t r u := by
  unfold d2blk d2K gram
  rw [h2, h3, Finset.sum_congr rfl fun k _ => show x0 (ix2 p k) * x1 (ix2 q k) = s (ix2 r k) * t (ix2 u k) by
    rw [h0 k, h1 k]]

/-- If the two label blocks hold the labels of rows `r` and `u`, the block's label test is theirs. -/
theorem sameblk_of (p q : Fin 1024) (a b : Sec) (r u : Fin 8192)
    (h4 : x4 (ix2 (0 : Fin 1) p) = a (ix1 r)) (h5 : x5 (ix2 (0 : Fin 1) q) = b (ix1 u)) :
    sameblk x4 x5 p q = same a b r u := by
  unfold sameblk same
  rw [h4, h5]
end

variable (m : (ℓ : Loc nD τ sig) → Buf (Elt Ideal) ℓ)

/-! ## At a grid point -/

/-- The squared distance grid point `t` computes at `(p, q)` is that of source row `srcRow t p` and target row
    `tgtRow t q`. -/
theorem d2blk_global (c : Dev nD) (t : Fin cfg0.N) (p q : Fin 1024) :
    d2blk (iblk m c 0 t) (iblk m c 1 t) (iblk m c 2 t) (iblk m c 3 t) p q
      = d2K (m ((c : Thread nD τ).loc main_arg0)) (m ((c : Thread nD τ).loc main_arg1)) (srcRow t p) (tgtRow t q) :=
  d2blk_of (iblk m c 0 t) (iblk m c 1 t) (iblk m c 2 t) (iblk m c 3 t) p q
    (m ((c : Thread nD τ).loc main_arg0)) (m ((c : Thread nD τ).loc main_arg1)) (srcRow t p) (tgtRow t q)
    (fun k => (blk0 m c t p k).trans (V_embS m c (ix2 (srcRow t p) k)))
    (fun k => (blk1 m c t q k).trans (V_embT m c (ix2 (tgtRow t q) k)))
    ((blk2 m c t p).trans (V_normS m c (srcRow t p)))
    ((blk3 m c t q).trans (V_normT m c (tgtRow t q)))

/-- The label test grid point `t` computes at `(p, q)` is that of source row `srcRow t p` and target row
    `tgtRow t q`. -/
theorem sameblk_global (c : Dev nD) (t : Fin cfg0.N) (p q : Fin 1024) :
    sameblk (iblk m c 4 t) (iblk m c 5 t) p q
      = same (m ((c : Thread nD τ).loc main_arg2)) (m ((c : Thread nD τ).loc main_arg3)) (srcRow t p) (tgtRow t q) :=
  sameblk_of (iblk m c 4 t) (iblk m c 5 t) p q
    (m ((c : Thread nD τ).loc main_arg2)) (m ((c : Thread nD τ).loc main_arg3)) (srcRow t p) (tgtRow t q)
    ((blk4 m c t p).trans (V_secS m c (srcRow t p)))
    ((blk5 m c t q).trans (V_secT m c (tgtRow t q)))

/-- Grid point `t`'s share of source row `srcRow t p`'s first loss: the contributions of its 1024 target rows. -/
theorem partS_global (c : Dev nD) (t : Fin cfg0.N) (p : Fin 1024) :
    partS (iblk m c 0 t) (iblk m c 1 t) (iblk m c 2 t) (iblk m c 3 t) (iblk m c 4 t) (iblk m c 5 t) p
      = ∑ q : Fin 1024, termS (d2K (m ((c : Thread nD τ).loc main_arg0)) (m ((c : Thread nD τ).loc main_arg1)))
          (m ((c : Thread nD τ).loc main_arg2)) (m ((c : Thread nD τ).loc main_arg3)) (srcRow t p) (tgtRow t q) := by
  unfold partS
  refine Finset.sum_congr rfl fun q _ => ?_
  unfold termS
  exact congrArg₂ (fun (w : BitVec 1) (d : EReal) => Scalar.select w d 0)
    (sameblk_global m c t p q) (d2blk_global m c t p q)

/-- Grid point `t`'s share of source row `srcRow t p`'s second loss. -/
theorem partC_global (c : Dev nD) (t : Fin cfg0.N) (p : Fin 1024) :
    partC (iblk m c 0 t) (iblk m c 1 t) (iblk m c 2 t) (iblk m c 3 t) (iblk m c 4 t) (iblk m c 5 t) p
      = ∑ q : Fin 1024, termC (d2K (m ((c : Thread nD τ).loc main_arg0)) (m ((c : Thread nD τ).loc main_arg1)))
          (m ((c : Thread nD τ).loc main_arg2)) (m ((c : Thread nD τ).loc main_arg3)) (srcRow t p) (tgtRow t q) := by
  unfold partC
  refine Finset.sum_congr rfl fun q _ => ?_
  unfold termC
  exact congrArg₂ (fun (w : BitVec 1) (d : EReal) => Scalar.select w 0 (hinge d))
    (sameblk_global m c t p q) (d2blk_global m c t p q)

end Cert.KernelIdeal.Loss

end
-- ==== Proof.HostAfter.lean ====
/-
  The two results of the program are the two arrays the region leaves, each re-laid from one row of 8192 entries
  to a vector of 8192 entries: entry `r` of a result is column `r` of the array.
-/
import proofs.«118512_j80315888435505_2_alg».proof.Proof.Gen.KernelIdeal.Frame
import proofs.«118512_j80315888435505_2_alg».proof.Proof.Spec
import Idealize.ShloMosaic.Lib.Pipeline.Value
import Idealize.ShloMosaic.Lib.StableHlo.Run
import Idealize.ShloMosaic.Lib.ValueLayout
import Idealize.ShloMosaic.PureOps.Ideal.Laws

noncomputable section

namespace Cert.KernelIdeal.Loss

open Cert.KernelIdeal Cert.KernelIdeal.Gen Cert.PairLoss Idealize.ShloMosaic Idealize.ShloMosaic.ValueIdx
  Idealize.ShloMosaic.TcCoe Idealize.SL.Sem Idealize.ShloMosaic.StableHlo

variable (m : (ℓ : Loc nD τ sig) → Buf (Elt Ideal) ℓ)

/-- The first result, as a whole array: the first output array re-laid as a vector. -/
theorem tail_S_arr (c : Dev nD) :
    (Pipeline.afterTail₀ cfgs (dats m) 0 (V0 m) [hostOps1] c main_v15 : S8192.Idx → EReal)
      = shapeCast S8192 ((dats m 0 c).arrAt 6 cfg0.N : S1x8192.Idx → EReal) Facts₀.shapeCasts_S1x8192_S8192 := by
  unfold Pipeline.afterTail₀
  show StableHlo.after hostOps1 _ (Proc.devRef .tc main_v15) = _
  after_results
  have hw := Pipeline.withArrays_arr spec0 launch0.win.arr_inj c (V0 m c) (fun w => (dats m 0 c).arrAt w cfg0.N) 6
  funext i
  exact congrFun (congrArg (fun x : S1x8192.Idx → EReal => shapeCast S8192 x Facts₀.shapeCasts_S1x8192_S8192) hw) i

/-- The second result, as a whole array: the second output array re-laid as a vector. -/
theorem tail_C_arr (c : Dev nD) :
    (Pipeline.afterTail₀ cfgs (dats m) 0 (V0 m) [hostOps1] c main_v16 : S8192.Idx → EReal)
      = shapeCast S8192 ((dats m 0 c).arrAt 7 cfg0.N : S1x8192.Idx → EReal) Facts₀.shapeCasts_S1x8192_S8192 := by
  unfold Pipeline.afterTail₀
  show StableHlo.after hostOps1 _ (Proc.devRef .tc main_v16) = _
  after_results
  have hw := Pipeline.withArrays_arr spec0 launch0.win.arr_inj c (V0 m c) (fun w => (dats m 0 c).arrAt w cfg0.N) 7
  funext i
  exact congrFun (congrArg (fun x : S1x8192.Idx → EReal => shapeCast S8192 x Facts₀.shapeCasts_S1x8192_S8192) hw) i

/-- Entry `r` of the first result is column `r` of the first output array. -/
theorem tail_S (c : Dev nD) (r : Fin 8192) :
    Pipeline.afterTail₀ cfgs (dats m) 0 (V0 m) [hostOps1] c main_v15 (ix1 r)
      = (dats m 0 c).arrAt 6 cfg0.N (ix2 (0 : Fin 1) r) :=
  (congrFun (tail_S_arr m c) (ix1 r)).trans (shapeCast_1a_a_apply _ _ r)

/-- Entry `r` of the second result is column `r` of the second output array. -/
theorem tail_C (c : Dev nD) (r : Fin 8192) :
    Pipeline.afterTail₀ cfgs (dats m) 0 (V0 m) [hostOps1] c main_v16 (ix1 r)
      = (dats m 0 c).arrAt 7 cfg0.N (ix2 (0 : Fin 1) r) :=
  (congrFun (tail_C_arr m c) (ix1 r)).trans (shapeCast_1a_a_apply _ _ r)

end Cert.KernelIdeal.Loss

end
-- ==== Proof.Final.lean ====
import proofs.«118512_j80315888435505_2_alg».proof.Proof.Invariant
import proofs.«118512_j80315888435505_2_alg».proof.Proof.Blocks
import proofs.«118512_j80315888435505_2_alg».proof.Proof.Global
import proofs.«118512_j80315888435505_2_alg».proof.Proof.HostAfter

noncomputable section

open scoped BigOperators
open Idealize.ShloMosaic Idealize.ShloMosaic.TcCoe Idealize.SL.Sem
open Idealize.ShloMosaic.Pipeline (Dat)

namespace Cert.KernelIdeal.Loss

open Cert.KernelIdeal Cert.KernelIdeal.Gen Idealize.ShloMosaic.ValueIdx Cert.PairLoss

variable (m : (ℓ : Loc nD τ sig) → Buf (Elt Ideal) ℓ) (ρ : Dev nD → PrngReg)

/-! ## From the running sums to the two output arrays

Point `8 i + j` pairs source group `i` with target group `j`: its share of row `p` is the sum, over the 1024
target rows of group `j`, of the pair terms of source row `1024 i + p`. After target group 7 the running sum
holds all eight shares; that point writes the sum, scaled, into block `i` of the output row, and the eight
such points cover the 8192 entries. -/

theorem shareS_global (c : Dev nD) (t : Fin cfg0.N) (p : Fin 1024) (j : Fin 8) :
    shareS m c (8 * (t.val / 8) + j.val) p = ∑ q : Fin 1024, termS (d2K (m ((c : Thread nD τ).loc main_arg0)) (m ((c : Thread nD τ).loc main_arg1))) (m ((c : Thread nD τ).loc main_arg2)) (m ((c : Thread nD τ).loc main_arg3)) (srcRow t p) (grp j q) := by
  have ht := lt64 t
  have hj := j.isLt
  have hlt : 8 * (t.val / 8) + j.val < cfg0.N := lt_of_lt_of_eq (by omega : 8 * (t.val / 8) + j.val < 64) (show cfg0.N = 64 from N_0).symm
  unfold shareS
  rw [dif_pos hlt, partS_global m c ⟨8 * (t.val / 8) + j.val, hlt⟩ p]
  refine Finset.sum_congr rfl fun q _ => ?_
  have e1 : srcRow ⟨8 * (t.val / 8) + j.val, hlt⟩ p = srcRow t p := Fin.ext (by show 1024 * ((8 * (t.val / 8) + j.val) / 8) + p.val = 1024 * (t.val / 8) + p.val; omega)
  have e2 : tgtRow ⟨8 * (t.val / 8) + j.val, hlt⟩ q = grp j q := Fin.ext (by show 1024 * ((8 * (t.val / 8) + j.val) % 8) + q.val = 1024 * j.val + q.val; omega)
  rw [e1, e2]

/-- After the last target group of a source group the running sum is the sum of the eight shares. -/
theorem runS_last (c : Dev nD) (t : Fin cfg0.N) (h1 : t.val % 8 = 7) (p : Fin 1024) :
    runS m c t.val p = ∑ j : Fin 8, shareS m c (8 * (t.val / 8) + j.val) p := by
  have et : t.val = 8 * (t.val / 8) + 7 := by omega
  have h := runS_group m c (t.val / 8) p 7 (by omega)
  rw [← et] at h
  exact h.trans (Finset.sum_range fun j => shareS m c (8 * (t.val / 8) + j) p)

/-- At the last target group the output row holds, at `p`, the grouped loss of source row `1024 (t / 8) + p`. -/
theorem rowS_apply (c : Dev nD) (t : Fin cfg0.N) (h0 : ¬t.val % 8 = 0) (h1 : t.val % 8 = 7) (p : Fin 1024) :
    (outsAt0 m c t.val t.isLt).1 (ix2 (0 : Fin 1) p) = lossSK (m ((c : Thread nD τ).loc main_arg0)) (m ((c : Thread nD τ).loc main_arg1)) (m ((c : Thread nD τ).loc main_arg2)) (m ((c : Thread nD τ).loc main_arg3)) (srcRow t p) := by
  refine (congrFun (rowS_last m c t h0 h1) (ix2 (0 : Fin 1) p)).trans ?_
  refine (pay3_apply _ p).trans ?_
  rw [← congrFun (sumS_last m c t h0 h1) (ix2 p (0 : Fin 1)), (sums_eq m c t.val t.isLt p (0 : Fin 1)).1, runS_last m c t h1 p]
  unfold lossSK
  refine congrArg (· * w2m13) ?_
  exact Finset.sum_congr rfl fun j _ => shareS_global m c t p j

/-- The output array after the run: the grouped loss of each source row. -/
def outS (c : Dev nD) : S1x8192.Idx → EReal := fun i => lossSK (m ((c : Thread nD τ).loc main_arg0)) (m ((c : Thread nD τ).loc main_arg1)) (m ((c : Thread nD τ).loc main_arg2)) (m ((c : Thread nD τ).loc main_arg3)) (i 1)

/-- An index of the output array is in point `t`'s block iff each coordinate is in the block's range. -/
theorem mem_blk6 (t : Fin cfg0.N) (i : S1x8192.Idx) :
    i ∈ ((cfg0.win 6).blk t).view.set ↔ ∀ a : Fin 2, win0_6.index t a * S1x1024.size a ≤ (i a).val ∧ (i a).val < win0_6.index t a * S1x1024.size a + S1x1024.size a := by
  show i ∈ ((View.whole main_v14_0).slice (win0_6.rect t)).set ↔ _
  rw [View.set_slice_whole, Rect.mem_set_unit]
  exact Iff.rfl

/-- What a point of the last target group writes back is its block of the output array. -/
theorem flushedS_eq (c : Dev nD) (t : Fin cfg0.N) (hf : (cfg0.win 6).flush t = true) :
    (dats m 0 c).flushed 6 t = ((cfg0.win 6).blk t).view.read (Elt Ideal) (outS m c) := by
  have h1 : t.val % 8 = 7 := (flush0_6 t).mp hf
  have h0 : ¬t.val % 8 = 0 := by omega
  show (cfg0.win 6).cut (grid0.coords t) ((dats m 0 c).after 6 t) = _
  rw [after0_6]
  funext y
  obtain ⟨u, p, rfl⟩ : ∃ (u : Fin 1) (p : Fin 1024), y = ix2 u p := ⟨y 0, y 1, eq_ix2 y⟩
  obtain rfl : u = 0 := Subsingleton.elim _ _
  show (outsAt0 m c t.val t.isLt).1 (ix2 (0 : Fin 1) p) = outS m c (((cfg0.win 6).blk t).view.emb (ix2 (0 : Fin 1) p))
  rw [rowS_apply m c t h0 h1 p]
  unfold outS
  refine congrArg (lossSK (m ((c : Thread nD τ).loc main_arg0)) (m ((c : Thread nD τ).loc main_arg1)) (m ((c : Thread nD τ).loc main_arg2)) (m ((c : Thread nD τ).loc main_arg3))) (Fin.ext ?_)
  show 1024 * (t.val / 8) + p.val = win0_6.index t 1 * 1024 + 1 * p.val
  rw [(idx6 t).2]; omega

/-- Every index of the output array is in the block of some point of the last target group. -/
theorem cover6 (i : S1x8192.Idx) : ∃ t : Fin cfg0.N, (cfg0.win 6).flush t = true ∧ i ∈ ((cfg0.win 6).blk t).view.set := by
  have hi0 : (i 0).val < 1 := idx2_lt0 i
  have hi1 : (i 1).val < 8192 := idx2_lt1 i
  have hlt : 8 * ((i 1).val / 1024) + 7 < cfg0.N := lt_of_lt_of_eq (by omega : 8 * ((i 1).val / 1024) + 7 < 64) (show cfg0.N = 64 from N_0).symm
  refine ⟨⟨8 * ((i 1).val / 1024) + 7, hlt⟩, (flush0_6 _).mpr (by show (8 * ((i 1).val / 1024) + 7) % 8 = 7; omega), ?_⟩
  rw [mem_blk6]
  obtain ⟨e0, e1⟩ := idx6 ⟨8 * ((i 1).val / 1024) + 7, hlt⟩
  intro a
  match a with
  | ⟨0, _⟩ =>
    show win0_6.index ⟨8 * ((i 1).val / 1024) + 7, hlt⟩ 0 * 1 ≤ (i 0).val ∧ (i 0).val < win0_6.index ⟨8 * ((i 1).val / 1024) + 7, hlt⟩ 0 * 1 + 1
    rw [e0]; omega
  | ⟨1, _⟩ =>
    show win0_6.index ⟨8 * ((i 1).val / 1024) + 7, hlt⟩ 1 * 1024 ≤ (i 1).val ∧ (i 1).val < win0_6.index ⟨8 * ((i 1).val / 1024) + 7, hlt⟩ 1 * 1024 + 1024
    rw [e1]
    show (8 * ((i 1).val / 1024) + 7) / 8 * 1024 ≤ (i 1).val ∧ (i 1).val < (8 * ((i 1).val / 1024) + 7) / 8 * 1024 + 1024
    omega

/-- So the output array ends holding the grouped loss of every source row. -/
theorem finalS (c : Dev nD) : (dats m 0 c).arrAt 6 cfg0.N = outS m c :=
  (dats m 0 c).arrAt_eq_of_cover 6 (outS m c) (flushedS_eq m c) cover6

theorem shareC_global (c : Dev nD) (t : Fin cfg0.N) (p : Fin 1024) (j : Fin 8) :
    shareC m c (8 * (t.val / 8) + j.val) p = ∑ q : Fin 1024, termC (d2K (m ((c : Thread nD τ).loc main_arg0)) (m ((c : Thread nD τ).loc main_arg1))) (m ((c : Thread nD τ).loc main_arg2)) (m ((c : Thread nD τ).loc main_arg3)) (srcRow t p) (grp j q) := by
  have ht := lt64 t
  have hj := j.isLt
  have hlt : 8 * (t.val / 8) + j.val < cfg0.N := lt_of_lt_of_eq (by omega : 8 * (t.val / 8) + j.val < 64) (show cfg0.N = 64 from N_0).symm
  unfold shareC
  rw [dif_pos hlt, partC_global m c ⟨8 * (t.val / 8) + j.val, hlt⟩ p]
  refine Finset.sum_congr rfl fun q _ => ?_
  have e1 : srcRow ⟨8 * (t.val / 8) + j.val, hlt⟩ p = srcRow t p := Fin.ext (by show 1024 * ((8 * (t.val / 8) + j.val) / 8) + p.val = 1024 * (t.val / 8) + p.val; omega)
  have e2 : tgtRow ⟨8 * (t.val / 8) + j.val, hlt⟩ q = grp j q := Fin.ext (by show 1024 * ((8 * (t.val / 8) + j.val) % 8) + q.val = 1024 * j.val + q.val; omega)
  rw [e1, e2]

/-- After the last target group of a source group the running sum is the sum of the eight shares. -/
theorem runC_last (c : Dev nD) (t : Fin cfg0.N) (h1 : t.val % 8 = 7) (p : Fin 1024) :
    runC m c t.val p = ∑ j : Fin 8, shareC m c (8 * (t.val / 8) + j.val) p := by
  have et : t.val = 8 * (t.val / 8) + 7 := by omega
  have h := runC_group m c (t.val / 8) p 7 (by omega)
  rw [← et] at h
  exact h.trans (Finset.sum_range fun j => shareC m c (8 * (t.val / 8) + j) p)

/-- At the last target group the output row holds, at `p`, the grouped loss of source row `1024 (t / 8) + p`. -/
theorem rowC_apply (c : Dev nD) (t : Fin cfg0.N) (h0 : ¬t.val % 8 = 0) (h1 : t.val % 8 = 7) (p : Fin 1024) :
    (outsAt0 m c t.val t.isLt).2.1 (ix2 (0 : Fin 1) p) = lossCK (m ((c : Thread nD τ).loc main_arg0)) (m ((c : Thread nD τ).loc main_arg1)) (m ((c : Thread nD τ).loc main_arg2)) (m ((c : Thread nD τ).loc main_arg3)) (srcRow t p) := by
  refine (congrFun (rowC_last m c t h0 h1) (ix2 (0 : Fin 1) p)).trans ?_
  refine (pay4_apply _ p).trans ?_
  rw [← congrFun (sumC_last m c t h0 h1) (ix2 p (0 : Fin 1)), (sums_eq m c t.val t.isLt p (0 : Fin 1)).2, runC_last m c t h1 p]
  unfold lossCK
  refine congrArg (· * w2m13) ?_
  exact Finset.sum_congr rfl fun j _ => shareC_global m c t p j

/-- The output array after the run: the grouped loss of each source row. -/
def outC (c : Dev nD) : S1x8192.Idx → EReal := fun i => lossCK (m ((c : Thread nD τ).loc main_arg0)) (m ((c : Thread nD τ).loc main_arg1)) (m ((c : Thread nD τ).loc main_arg2)) (m ((c : Thread nD τ).loc main_arg3)) (i 1)

/-- An index of the output array is in point `t`'s block iff each coordinate is in the block's range. -/
theorem mem_blk7 (t : Fin cfg0.N) (i : S1x8192.Idx) :
    i ∈ ((cfg0.win 7).blk t).view.set ↔ ∀ a : Fin 2, win0_7.index t a * S1x1024.size a ≤ (i a).val ∧ (i a).val < win0_7.index t a * S1x1024.size a + S1x1024.size a := by
  show i ∈ ((View.whole main_v14_1).slice (win0_7.rect t)).set ↔ _
  rw [View.set_slice_whole, Rect.mem_set_unit]
  exact Iff.rfl

/-- What a point of the last target group writes back is its block of the output array. -/
theorem flushedC_eq (c : Dev nD) (t : Fin cfg0.N) (hf : (cfg0.win 7).flush t = true) :
    (dats m 0 c).flushed 7 t = ((cfg0.win 7).blk t).view.read (Elt Ideal) (outC m c) := by
  have h1 : t.val % 8 = 7 := (flush0_7 t).mp hf
  have h0 : ¬t.val % 8 = 0 := by omega
  show (cfg0.win 7).cut (grid0.coords t) ((dats m 0 c).after 7 t) = _
  rw [after0_7]
  funext y
  obtain ⟨u, p, rfl⟩ : ∃ (u : Fin 1) (p : Fin 1024), y = ix2 u p := ⟨y 0, y 1, eq_ix2 y⟩
  obtain rfl : u = 0 := Subsingleton.elim _ _
  show (outsAt0 m c t.val t.isLt).2.1 (ix2 (0 : Fin 1) p) = outC m c (((cfg0.win 7).blk t).view.emb (ix2 (0 : Fin 1) p))
  rw [rowC_apply m c t h0 h1 p]
  unfold outC
  refine congrArg (lossCK (m ((c : Thread nD τ).loc main_arg0)) (m ((c : Thread nD τ).loc main_arg1)) (m ((c : Thread nD τ).loc main_arg2)) (m ((c : Thread nD τ).loc main_arg3))) (Fin.ext ?_)
  show 1024 * (t.val / 8) + p.val = win0_7.index t 1 * 1024 + 1 * p.val
  rw [(idx7 t).2]; omega

/-- Every index of the output array is in the block of some point of the last target group. -/
theorem cover7 (i : S1x8192.Idx) : ∃ t : Fin cfg0.N, (cfg0.win 7).flush t = true ∧ i ∈ ((cfg0.win 7).blk t).view.set := by
  have hi0 : (i 0).val < 1 := idx2_lt0 i
  have hi1 : (i 1).val < 8192 := idx2_lt1 i
  have hlt : 8 * ((i 1).val / 1024) + 7 < cfg0.N := lt_of_lt_of_eq (by omega : 8 * ((i 1).val / 1024) + 7 < 64) (show cfg0.N = 64 from N_0).symm
  refine ⟨⟨8 * ((i 1).val / 1024) + 7, hlt⟩, (flush0_7 _).mpr (by show (8 * ((i 1).val / 1024) + 7) % 8 = 7; omega), ?_⟩
  rw [mem_blk7]
  obtain ⟨e0, e1⟩ := idx7 ⟨8 * ((i 1).val / 1024) + 7, hlt⟩
  intro a
  match a with
  | ⟨0, _⟩ =>
    show win0_7.index ⟨8 * ((i 1).val / 1024) + 7, hlt⟩ 0 * 1 ≤ (i 0).val ∧ (i 0).val < win0_7.index ⟨8 * ((i 1).val / 1024) + 7, hlt⟩ 0 * 1 + 1
    rw [e0]; omega
  | ⟨1, _⟩ =>
    show win0_7.index ⟨8 * ((i 1).val / 1024) + 7, hlt⟩ 1 * 1024 ≤ (i 1).val ∧ (i 1).val < win0_7.index ⟨8 * ((i 1).val / 1024) + 7, hlt⟩ 1 * 1024 + 1024
    rw [e1]
    show (8 * ((i 1).val / 1024) + 7) / 8 * 1024 ≤ (i 1).val ∧ (i 1).val < (8 * ((i 1).val / 1024) + 7) / 8 * 1024 + 1024
    omega

/-- So the output array ends holding the grouped loss of every source row. -/
theorem finalC (c : Dev nD) : (dats m 0 c).arrAt 7 cfg0.N = outC m c :=
  (dats m 0 c).arrAt_eq_of_cover 7 (outC m c) (flushedC_eq m c) cover7

/-! ## The run, read -/

/-- Every weakly fair execution of the program terminates with the two results at the grouped losses of the
    argument arrays, row by row, and the arguments unchanged. -/
theorem run : θ_run defs (onTc (τ := τ) (main (F := Ideal))) ⟨m, fun _ => 0, ρ⟩ fun r => ∀ c : Dev nD,
      r.2.mem ((c.tc : Thread nD τ).loc main_v15) = (fun i => lossSK (m ((c : Thread nD τ).loc main_arg0)) (m ((c : Thread nD τ).loc main_arg1)) (m ((c : Thread nD τ).loc main_arg2)) (m ((c : Thread nD τ).loc main_arg3)) (i 0))
      ∧ r.2.mem ((c.tc : Thread nD τ).loc main_v16) = (fun i => lossCK (m ((c : Thread nD τ).loc main_arg0)) (m ((c : Thread nD τ).loc main_arg1)) (m ((c : Thread nD τ).loc main_arg2)) (m ((c : Thread nD τ).loc main_arg3)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v15 (Pipeline.mem_restRefs_of main_v15 (by decide) (by decide))).trans (funext fun i => by
        obtain ⟨r, rfl⟩ : ∃ r : Fin 8192, i = ix1 r := ⟨i 0, eq_ix1 i⟩
        rw [tail_S m c r, finalS m c]; rfl),
      ((h c).2 main_v16 (Pipeline.mem_restRefs_of main_v16 (by decide) (by decide))).trans (funext fun i => by
        obtain ⟨r, rfl⟩ : ∃ r : Fin 8192, i = ix1 r := ⟨i 0, eq_ix1 i⟩
        rw [tail_C m c r, finalC m c]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Loss
end
-- ==== Proof.RefValue.lean ====
/-
  The reference program computes the flat arrangement of the two losses.

  Each of the program's operations is read at one index.  The row sums of squares are the squared norms, the
  contraction of the two matrices over their 512 columns is the inner product of two rows, and the broadcasts only
  re-index: the element at the pair (r, u) of every 8192 x 8192 array is built from row r of the first matrix, row u
  of the second, and the two labels of r and u.  Reading the stages in order gives, at the pair (r, u), the squared
  distance with the division after the clamp, the one-bit word "the labels agree", and the margin term; the two
  results are the sums of the selected terms over the 8192 target rows, divided by 8192.  The zero word is the
  real number zero, so an initial value of a sum disappears and a clamp is a clamp at 0; the other float words
  stay as words.
-/
import proofs.«118512_j80315888435505_2_alg».proof.Proof.Spec
import proofs.«118512_j80315888435505_2_alg».proof.Proof.Gen.ReferenceIdeal.Read

noncomputable section

open scoped BigOperators

namespace Cert.ReferenceIdeal.RefValue

open Cert.ReferenceIdeal Cert.ReferenceIdeal.Read Cert.PairLoss Idealize.ShloMosaic Idealize.ShloMosaic.ValueIdx

/-! ## The index maps of the layout operations, at a row or at a pair of rows -/

/-- Column `k` of row `r`, as the first row sum reads it. -/
theorem idx_v1 (r : Fin 8192) (k : Fin 512) : idx_main_v1 (ix1 r) k = ix2 r k :=
  funext fun a => Fin.ext (by match a with | ⟨0, _⟩ => rfl | ⟨1, _⟩ => rfl)

/-- Column `k` of row `u`, as the second row sum reads it. -/
theorem idx_v3 (u : Fin 8192) (k : Fin 512) : idx_main_v3 (ix1 u) k = ix2 u k :=
  funext fun a => Fin.ext (by match a with | ⟨0, _⟩ => rfl | ⟨1, _⟩ => rfl)

/-- The contraction at the pair (r, u) reads row `r` of its left operand. -/
theorem lidx_v4 (r u : Fin 8192) (k : Fin 512) : lidx_main_v4 (ix2 r u) k = ix2 r k :=
  funext fun a => Fin.ext (by match a with | ⟨0, _⟩ => rfl | ⟨1, _⟩ => rfl)

/-- The contraction at the pair (r, u) reads row `u` of its right operand. -/
theorem ridx_v4 (r u : Fin 8192) (k : Fin 512) : ridx_main_v4 (ix2 r u) k = ix2 u k :=
  funext fun a => Fin.ext (by match a with | ⟨0, _⟩ => rfl | ⟨1, _⟩ => rfl)

/-- A column vector spread along the second axis is read at the first coordinate of the pair. -/
theorem idx_v5_v7 (r u : Fin 8192) : idx_main_v5 (idx_main_v7 (ix2 r u)) = ix1 r :=
  funext fun a => Fin.ext (by match a with | ⟨0, _⟩ => rfl)

/-- A row vector spread along the first axis is read at the second coordinate of the pair. -/
theorem idx_v6_v8 (r u : Fin 8192) : idx_main_v6 (idx_main_v8 (ix2 r u)) = ix1 u :=
  funext fun a => Fin.ext (by match a with | ⟨0, _⟩ => rfl)

/-- The source labels spread along the second axis are read at the first coordinate. -/
theorem idx_v18_v20 (r u : Fin 8192) : idx_main_v18 (idx_main_v20 (ix2 r u)) = ix1 r :=
  funext fun a => Fin.ext (by match a with | ⟨0, _⟩ => rfl)

/-- The target labels spread along the first axis are read at the second coordinate. -/
theorem idx_v19_v21 (r u : Fin 8192) : idx_main_v19 (idx_main_v21 (ix2 r u)) = ix1 u :=
  funext fun a => Fin.ext (by match a with | ⟨0, _⟩ => rfl)

/-- Target row `u` of source row `r`, as the first loss's sum reads it. -/
theorem idx_v24 (r u : Fin 8192) : idx_main_v24 (ix1 r) u = ix2 r u :=
  funext fun a => Fin.ext (by match a with | ⟨0, _⟩ => rfl | ⟨1, _⟩ => rfl)

/-- Target row `u` of source row `r`, as the second loss's sum reads it. -/
theorem idx_v33 (r u : Fin 8192) : idx_main_v33 (ix1 r) u = ix2 r u :=
  funext fun a => Fin.ext (by match a with | ⟨0, _⟩ => rfl | ⟨1, _⟩ => rfl)

/-! ## The stages at a row or a pair of rows -/

/-- The first row sum of squares is the squared norm of a row of the first matrix. -/
theorem v1_eq (x0 : (⟨S8192x512, .f32⟩ : BufTy).Contents (Elt Ideal)) (r : Fin 8192) :
    val_main_v1 (F := Ideal) x0 (ix1 r) = sqn x0 r := by
  rw [val_main_v1_apply, val_main_cst_apply]
  simp only [val_main_v0_apply, idx_v1, Ideal.ofBits_def, Ideal.ofBits_zero_f32, Ideal.mulf_def, zero_add]
  rfl

/-- The second row sum of squares is the squared norm of a row of the second matrix. -/
theorem v3_eq (x1 : (⟨S8192x512, .f32⟩ : BufTy).Contents (Elt Ideal)) (u : Fin 8192) :
    val_main_v3 (F := Ideal) x1 (ix1 u) = sqn x1 u := by
  rw [val_main_v3_apply, val_main_cst_0_apply]
  simp only [val_main_v2_apply, idx_v3, Ideal.ofBits_def, Ideal.ofBits_zero_f32, Ideal.mulf_def, zero_add]
  rfl

/-- The contraction over the columns is the inner product of the two rows. -/
theorem v4_eq (x0 x1 : (⟨S8192x512, .f32⟩ : BufTy).Contents (Elt Ideal)) (r u : Fin 8192) :
    val_main_v4 (F := Ideal) x0 x1 (ix2 r u) = gram x0 x1 r u := by
  rw [val_main_v4_apply]
  simp only [lidx_v4, ridx_v4]
  rfl

/-- The squared distance of the pair, divided by 512 after the sum and the clamp. -/
theorem v16_eq (x0 x1 : (⟨S8192x512, .f32⟩ : BufTy).Contents (Elt Ideal)) (r u : Fin 8192) :
    val_main_v16 (F := Ideal) x0 x1 (ix2 r u) = d2R x0 x1 r u := by
  rw [val_main_v16_apply, val_main_v14_apply, val_main_v15_apply, val_main_cst_3_apply, val_main_v12_apply,
    val_main_v13_apply, val_main_cst_2_apply, val_main_v9_apply, val_main_v11_apply, val_main_v7_apply,
    val_main_v5_apply, val_main_v8_apply, val_main_v6_apply, val_main_v10_apply, val_main_cst_1_apply]
  simp only [idx_v5_v7, idx_v6_v8, v1_eq, v3_eq, v4_eq, Ideal.ofBits_def, Ideal.ofBits_zero_f32, Ideal.addf_def,
    Ideal.subf_def, Ideal.mulf_def, Ideal.maximumf_def, Ideal.hostDivf_def]
  rfl

/-- The comparison of the two labels of the pair. -/
theorem v22_eq (x2 x3 : (⟨S8192, .i32⟩ : BufTy).Contents (Elt Ideal)) (r u : Fin 8192) :
    val_main_v22 (F := Ideal) x2 x3 (ix2 r u) = same x2 x3 r u := by
  rw [val_main_v22_apply, val_main_v20_apply, val_main_v18_apply, val_main_v21_apply, val_main_v19_apply]
  simp only [idx_v18_v20, idx_v19_v21]
  rfl

/-- The margin term of the pair's squared distance. -/
theorem v31_eq (x0 x1 : (⟨S8192x512, .f32⟩ : BufTy).Contents (Elt Ideal)) (r u : Fin 8192) :
    val_main_v31 (F := Ideal) x0 x1 (ix2 r u) = hinge (d2R x0 x1 r u) := by
  rw [val_main_v31_apply, val_main_v30_apply, val_main_v29_apply, val_main_cst_8_apply, val_main_v28_apply,
    val_main_v27_apply, val_main_cst_7_apply, val_main_v17_apply, v16_eq]
  simp only [Ideal.ofBits_def, Ideal.ofBits_zero_f32, Ideal.subf_def, Ideal.mulf_def, Ideal.maximumf_def,
    Ideal.hostUnary_sqrt_def]
  rw [max_comm]
  rfl

/-! ## The two results -/

/-- The first result: the squared distances of the pairs with equal labels, summed over the target rows and
    divided by 8192. -/
theorem v26_eq (x0 x1 : (⟨S8192x512, .f32⟩ : BufTy).Contents (Elt Ideal))
    (x2 x3 : (⟨S8192, .i32⟩ : BufTy).Contents (Elt Ideal)) :
    val_main_v26 (F := Ideal) x0 x1 x2 x3 = fun i => lossSR x0 x1 x2 x3 (i 0) := by
  funext i
  obtain ⟨r, rfl⟩ : ∃ r : Fin 8192, i = ix1 r := ⟨i 0, eq_ix1 i⟩
  rw [val_main_v26_apply, val_main_v24_apply, val_main_cst_5_apply, val_main_v25_apply, val_main_cst_6_apply]
  simp only [val_main_v23_apply, val_main_call0_v1_apply, val_main_call0_v0_apply, val_main_cst_4_apply, idx_v24,
    v22_eq, v16_eq, Ideal.ofBits_def, Ideal.ofBits_zero_f32, Ideal.hostDivf_def, zero_add]
  rfl

/-- The second result: the margin terms of the pairs with different labels, summed over the target rows and
    divided by 8192. -/
theorem v35_eq (x0 x1 : (⟨S8192x512, .f32⟩ : BufTy).Contents (Elt Ideal))
    (x2 x3 : (⟨S8192, .i32⟩ : BufTy).Contents (Elt Ideal)) :
    val_main_v35 (F := Ideal) x0 x1 x2 x3 = fun i => lossCR x0 x1 x2 x3 (i 0) := by
  funext i
  obtain ⟨r, rfl⟩ : ∃ r : Fin 8192, i = ix1 r := ⟨i 0, eq_ix1 i⟩
  rw [val_main_v35_apply, val_main_v33_apply, val_main_cst_10_apply, val_main_v34_apply, val_main_cst_11_apply]
  simp only [val_main_v32_apply, val_main_call1_v1_apply, val_main_call1_v0_apply, val_main_cst_9_apply, idx_v33,
    v22_eq, v31_eq, Ideal.ofBits_def, Ideal.ofBits_zero_f32, Ideal.hostDivf_def, zero_add]
  rfl

end Cert.ReferenceIdeal.RefValue

end
-- ==== Proof.Consts.lean ====
/-
  The values of the float words the two programs spell, read once as extended reals.

  Each 32-bit pattern is sign · (1 + fraction / 2²³) · 2^(exponent − 127); the patterns below have a zero
  fraction, so each is a power of two, and the all-ones exponent with a zero fraction is the positive infinity.
-/
import proofs.«118512_j80315888435505_2_alg».proof.Proof.Spec

noncomputable section

namespace Cert.PairLoss

open Idealize.ShloMosaic

/-- The pattern of `512.0` is the real `512`. -/
theorem w512_eq : w512 = ((512 : ℝ) : EReal) := by
  simp [Ideal.ofBits, Ideal.ieee, -EReal.coe_mul]; norm_num

/-- The pattern of `2⁻⁸` is the real `1/256`. -/
theorem w2m8_eq : w2m8 = ((1 / 256 : ℝ) : EReal) := by
  simp [Ideal.ofBits, Ideal.ieee, -EReal.coe_mul]; norm_num

/-- The pattern of `2.0` is the real `2`. -/
theorem w2_eq : w2 = ((2 : ℝ) : EReal) := by
  simp [Ideal.ofBits, Ideal.ieee, -EReal.coe_mul]; norm_num

/-- The pattern of `8192.0` is the real `8192`. -/
theorem w8192_eq : w8192 = ((8192 : ℝ) : EReal) := by
  simp [Ideal.ofBits, Ideal.ieee, -EReal.coe_mul]; norm_num

/-- The pattern of `2⁻¹³` is the real `1/8192`. -/
theorem w2m13_eq : w2m13 = ((1 / 8192 : ℝ) : EReal) := by
  simp [Ideal.ofBits, Ideal.ieee, -EReal.coe_mul]; norm_num

/-- The pattern with all exponent bits set and a zero fraction is the positive infinity. -/
theorem wInf_eq : Ideal.ofBits .f32 0x7F800000#32 = (⊤ : EReal) := by
  simp [Ideal.ofBits, Ideal.ieee]

end Cert.PairLoss

end
-- ==== Proof.Law.lean ====
/-
  The two arrangements of each loss agree when every entry of both matrices is a real number.

  Three facts, each proved once:
  * for real entries the squared norms and the inner product are (coercions of) real numbers, and for reals
    `max (A/512 + B/512 − G/256) 0 = max (A + B − 2G) 0 / 512`, since `1/512 ≥ 0` passes through the maximum;
  * a sum over 8 groups of 1024 consecutive rows is the sum over all 8192 rows, the pair `(j, q)` naming row
    `1024·j + q` exactly once;
  * multiplying by `1/8192` is dividing by `8192`, at the infinities too.
-/
import proofs.«118512_j80315888435505_2_alg».proof.Proof.Consts
import Mathlib.Algebra.BigOperators.Fin
import Mathlib.Logic.Equiv.Fin.Basic

noncomputable section

open scoped BigOperators

namespace Cert.PairLoss

open Idealize.ShloMosaic Idealize.ShloMosaic.ValueIdx

/-- The coercion of the reals into the extended reals commutes with finite sums. -/
theorem coe_sum {ι : Type} (A : Finset ι) (f : ι → ℝ) :
    ((∑ i ∈ A, f i : ℝ) : EReal) = ∑ i ∈ A, (f i : EReal) := by
  classical
  induction A using Finset.induction_on with
  | empty => simp
  | insert _ _ h ih => rw [Finset.sum_insert h, Finset.sum_insert h, EReal.coe_add, ih]

/-- The coercion commutes with the maximum (it is monotone). -/
theorem coe_max (x y : ℝ) : ((max x y : ℝ) : EReal) = max (x : EReal) (y : EReal) :=
  EReal.coe_strictMono.monotone.map_max

/-- With real entries, a sum of products of entries is the coercion of the real sum of products. -/
theorem sum_mul_coe (xv yv : Fin 512 → ℝ) (x y : Fin 512 → EReal)
    (hx : ∀ k, x k = (xv k : EReal)) (hy : ∀ k, y k = (yv k : EReal)) :
    ∑ k : Fin 512, x k * y k = ((∑ k : Fin 512, xv k * yv k : ℝ) : EReal) := by
  rw [coe_sum]
  refine Finset.sum_congr rfl (fun k _ => ?_)
  rw [hx k, hy k, EReal.coe_mul]

/-- The real identity behind the two arrangements of the squared distance. -/
theorem real_d2 (A B G : ℝ) :
    max (A * (1 / 512) + B * (1 / 512) - G * (1 / 256)) 0 = max (A + B - 2 * G) 0 * (1 / 512) := by
  rw [max_mul_of_nonneg _ _ (by norm_num : (0 : ℝ) ≤ 1 / 512), zero_mul]
  congr 1
  ring

/-- For real entries the two arrangements of the squared distance are the same function. -/
theorem d2K_eq_d2R (s t : Emb) (hs : Finite s) (ht : Finite t) : d2K s t = d2R s t := by
  choose sv hsv using hs
  choose tv htv using ht
  funext r u
  have hA : sqn s r = ((∑ k : Fin 512, sv (ix2 r k) * sv (ix2 r k) : ℝ) : EReal) :=
    sum_mul_coe _ _ _ _ (fun k => hsv (ix2 r k)) (fun k => hsv (ix2 r k))
  have hB : sqn t u = ((∑ k : Fin 512, tv (ix2 u k) * tv (ix2 u k) : ℝ) : EReal) :=
    sum_mul_coe _ _ _ _ (fun k => htv (ix2 u k)) (fun k => htv (ix2 u k))
  have hG : gram s t r u = ((∑ k : Fin 512, sv (ix2 r k) * tv (ix2 u k) : ℝ) : EReal) :=
    sum_mul_coe _ _ _ _ (fun k => hsv (ix2 r k)) (fun k => htv (ix2 u k))
  have h512 : (512 : ℝ) ≠ 0 := by norm_num
  unfold d2K d2R
  rw [hA, hB, hG, w512_eq, w2m8_eq, w2_eq, Ideal.div_coe h512, Ideal.div_coe h512, Ideal.div_coe h512,
    ← EReal.coe_zero, ← EReal.coe_mul, ← EReal.coe_mul, ← EReal.coe_mul, ← EReal.coe_mul, ← EReal.coe_add,
    ← EReal.coe_add, ← EReal.coe_sub, ← EReal.coe_sub, ← coe_max, ← coe_max, ← EReal.coe_mul, real_d2]

/-- Eight groups of 1024 consecutive rows are all 8192 rows, each once. -/
theorem sum_grp (f : Fin 8192 → EReal) : ∑ j : Fin 8, ∑ q : Fin 1024, f (grp j q) = ∑ u : Fin 8192, f u := by
  rw [← Fintype.sum_prod_type']
  refine Fintype.sum_equiv ((finProdFinEquiv : Fin 8 × Fin 1024 ≃ Fin (8 * 1024)).trans
    (finCongr (by norm_num : 8 * 1024 = 8192))) _ _ (fun x => ?_)
  refine congrArg f (Fin.ext ?_)
  show 1024 * x.1.val + x.2.val = x.2.val + 1024 * x.1.val
  exact Nat.add_comm _ _

/-- Multiplying by `2⁻¹³` is dividing by `8192`, for every extended real. -/
theorem mul_w2m13 (x : EReal) : x * w2m13 = Ideal.div x w8192 := by
  rw [w2m13_eq, w8192_eq, Ideal.div_coe (by norm_num : (8192 : ℝ) ≠ 0)]

/-- The first loss: the grouped arrangement equals the flat one. -/
theorem lossSK_eq_lossSR (s t : Emb) (a b : Sec) (hs : Finite s) (ht : Finite t) (r : Fin 8192) :
    lossSK s t a b r = lossSR s t a b r := by
  unfold lossSK lossSR
  rw [sum_grp (fun u => termS (d2K s t) a b r u), mul_w2m13, d2K_eq_d2R s t hs ht]

/-- The second loss: the grouped arrangement equals the flat one. -/
theorem lossCK_eq_lossCR (s t : Emb) (a b : Sec) (hs : Finite s) (ht : Finite t) (r : Fin 8192) :
    lossCK s t a b r = lossCR s t a b r := by
  unfold lossCK lossCR
  rw [sum_grp (fun u => termC (d2K s t) a b r u), mul_w2m13, d2K_eq_d2R s t hs ht]

end Cert.PairLoss

end
-- ==== Proof.Finite.lean ====
/-
  The precondition "every entry of both matrices has absolute value below +∞" makes every entry a real number.

  The precondition is the conjunction of two "for all entries" tests, each a reduction by `and` of the one-bit
  words `|x| < +∞`. A conjunction that is 1 has both parts 1; a reduction by `and` that is 1 met a 1 at every
  entry; and an extended real `x` with `max x (−x) < ⊤` is neither infinity, so it is (the coercion of) a real.
-/
import proofs.«118512_j80315888435505_2_alg».proof.Proof.Consts
import proofs.«118512_j80315888435505_2_alg».proof.Pre_finite_inputs
import proofs.«118512_j80315888435505_2_alg».proof.Proof.Gen.Pre_finite_inputs
import Idealize.ShloMosaic.Lib.ReduceAll
import Idealize.ShloMosaic.Lib.IdealHost

noncomputable section

namespace Cert.PairLoss

open Idealize.ShloMosaic Idealize.ShloMosaic.ValueIdx

/-- An extended real whose absolute value `max x (−x)` is below `⊤` is a real number. -/
theorem real_of_abs_lt_top (x : EReal) (h : max x (-x) < ⊤) : ∃ v : ℝ, x = (v : EReal) := by
  induction x using EReal.rec with
  | bot => simp at h
  | coe v => exact ⟨v, rfl⟩
  | top => simp at h

/-- The one-bit word `|x| < +∞` being 1 says `x` is a real number. -/
theorem real_of_cmp (x : EReal)
    (h : Ideal.cmp .olt (max x (-x)) (Ideal.ofBits .f32 0x7F800000#32) = 1#1) : ∃ v : ℝ, x = (v : EReal) := by
  rw [wInf_eq] at h
  by_cases hlt : max x (-x) < ⊤
  · exact real_of_abs_lt_top x hlt
  · simp [Ideal.cmp, hlt] at h

/-- The result of the precondition has a single index. -/
instance : Subsingleton Cert.Pre_finite_inputs.S_.Idx := ⟨fun a b => funext fun d => d.elim0⟩

/-- If the precondition holds, every entry of both matrices is a real number. -/
theorem finite_of_pre [Cert.Pre_finite_inputs.Facts] (x0 x1 : Emb) (x2 x3 : Sec)
    (h : Cert.Pre_finite_inputs.fn (F := Ideal) x0 x1 x2 x3 = fun _ => 1#1) : Finite x0 ∧ Finite x1 := by
  have h0 := congrFun h ix0
  dsimp only [Cert.Pre_finite_inputs.fn] at h0
  obtain ⟨ha, hb⟩ := IntOp.andi_eq_one.1 h0
  refine ⟨fun i => ?_, fun i => ?_⟩
  · have hi := Host.reduce_andi_all _ _ _ _ _ ha i
    rw [cmpf_apply, broadcastInDim_scalar_apply] at hi
    exact real_of_cmp (x0 i) hi
  · have hi := Host.reduce_andi_all _ _ _ _ _ hb i
    rw [cmpf_apply, broadcastInDim_scalar_apply] at hi
    exact real_of_cmp (x1 i) hi

end Cert.PairLoss

end
-- ==== Proof.lean ====
/-
  Two programs compute, for each of 8192 source rows, two losses over its squared distances to 8192 target
  rows: the first sums the distances of the pairs whose labels agree, the second sums the squared margin
  shortfalls `(max (½ − √d) 0)²` of the pairs whose labels differ. One program works block by block — 8 × 8
  blocks of 1024 × 1024 pairs, each block's distances from an inner-product matrix and the rows' squared
  norms already divided by 512, partial row sums accumulated over the 8 target groups and scaled by 2⁻¹³ at
  the last — the other on the whole 8192 × 8192 matrix, dividing by 512 after the clamp and by 8192 after the
  sum. Over the extended reals a sum may be regrouped freely, so the two arrangements of the row sums agree
  always; the two arrangements of a squared distance agree because, the inputs being finite, every norm and
  inner product is a real number and the division by 512 distributes.

  The block program's results are read off its run point by point (Pieces, Payload, Invariant, Blocks, Global,
  HostBefore, HostAfter, Final), the whole-matrix program's off its operations one at a time (RefValue); Law
  joins the two arrangements and Finite draws the finiteness of the inputs from the precondition.
-/
import proofs.«118512_j80315888435505_2_alg».proof.Defs
import proofs.«118512_j80315888435505_2_alg».proof.Proof.Gen.Kernel
import proofs.«118512_j80315888435505_2_alg».proof.Proof.Gen.Kernel.Skeleton
import proofs.«118512_j80315888435505_2_alg».proof.Proof.Gen.Kernel.Launch
import proofs.«118512_j80315888435505_2_alg».proof.Proof.Gen.Kernel.Points
import proofs.«118512_j80315888435505_2_alg».proof.Proof.Gen.Kernel.Frame
import proofs.«118512_j80315888435505_2_alg».proof.Proof.Gen.KernelIdeal
import proofs.«118512_j80315888435505_2_alg».proof.Proof.Gen.KernelIdeal.Skeleton
import proofs.«118512_j80315888435505_2_alg».proof.Proof.Gen.KernelIdeal.Launch
import proofs.«118512_j80315888435505_2_alg».proof.Proof.Gen.KernelIdeal.Points
import proofs.«118512_j80315888435505_2_alg».proof.Proof.Gen.KernelIdeal.Frame
import proofs.«118512_j80315888435505_2_alg».proof.Proof.Gen.ReferenceIdeal
import proofs.«118512_j80315888435505_2_alg».proof.Proof.Gen.ReferenceIdeal.Run
import proofs.«118512_j80315888435505_2_alg».proof.Proof.Gen.ReferenceIdeal.Read
import proofs.«118512_j80315888435505_2_alg».proof.Proof.Gen.Pre_finite_inputs
import proofs.«118512_j80315888435505_2_alg».proof.Proof.Final
import proofs.«118512_j80315888435505_2_alg».proof.Proof.RefValue
import proofs.«118512_j80315888435505_2_alg».proof.Proof.Law
import proofs.«118512_j80315888435505_2_alg».proof.Proof.Finite
import Idealize.ShloMosaic.Adequacy
import Idealize.ShloMosaic.Init

noncomputable section

namespace Cert.Proof

open Idealize.ShloMosaic Idealize.ShloMosaic.TcCoe Idealize.SL.Sem Cert.PairLoss

/-- The word-level program runs and leaves its arguments as they were. -/
theorem frame_k : Cert.frame_Kernel := fun m ρ _ => Cert.Kernel.Gen.frame m ρ
/-- So does the block program read over the extended reals. -/
theorem frame_ki : Cert.frame_KernelIdeal := fun m ρ _ => Cert.KernelIdeal.Gen.frame m ρ
/-- And the whole-matrix program: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation of the block program was rewritten on the way to the extended reals. -/
theorem preserves : Cert.preserves_Kernel_KernelIdeal := trivial

/-- From memories that agree on the four arguments both programs end with the same two loss vectors: the block
    program at the grouped arrangement, the whole-matrix program at the flat one, equal row by row because the
    inputs are finite. -/
theorem algebraic : Cert.algebraic_KernelIdeal_ReferenceIdeal := by
  intro m ρ m' ρ' hpre hagree
  refine ⟨_, _, Cert.KernelIdeal.Loss.run m ρ, ?_⟩
  refine (θ_run Cert.ReferenceIdeal.defs _ _).mono (fun _ h c => ?_) (Cert.ReferenceIdeal.Value.run (F := Ideal) m' ρ')
  obtain ⟨h26, h35, ha0, ha1, ha2, ha3⟩ := h c
  obtain ⟨hs, ht⟩ := Cert.PairLoss.finite_of_pre _ _ _ _ (hpre c)
  refine ⟨h26.trans ?_, h35.trans ?_, ha0, ha1, ha2, ha3⟩
  · rw [Cert.ReferenceIdeal.Read.val_main_v26_eq, Cert.ReferenceIdeal.RefValue.v26_eq, (hagree c).1, (hagree c).2.1, (hagree c).2.2.1, (hagree c).2.2.2]
    exact funext fun i => (lossSK_eq_lossSR _ _ _ _ hs ht (i 0)).symm
  · rw [Cert.ReferenceIdeal.Read.val_main_v35_eq, Cert.ReferenceIdeal.RefValue.v35_eq, (hagree c).1, (hagree c).2.1, (hagree c).2.2.1, (hagree c).2.2.2]
    exact funext fun i => (lossCK_eq_lossCR _ _ _ _ hs ht (i 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
